-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S10000x128 : Shape := ⟨2, ![10000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x10 : Shape := ⟨2, ![1, 10]⟩
abbrev S50000x10 : Shape := ⟨2, ![50000, 10]⟩
abbrev S10000x10 : Shape := ⟨2, ![10000, 10]⟩
abbrev S10000 : Shape := ⟨1, ![10000]⟩
abbrev S10000x1 : Shape := ⟨2, ![10000, 1]⟩

abbrev nBuf : Space → Nat
  | .hbm => 133
  | .vmem => 16
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x128, .bf16⟩
  | 16 => ⟨S128x128, .bf16⟩
  | 17 => ⟨S50000x128, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .bf16⟩
  | 73 => ⟨S128x128, .bf16⟩
  | 74 => ⟨S50000x128, .f32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .bf16⟩
  | 2 => ⟨S128x10, .bf16⟩
  | 3 => ⟨S1x10, .f32⟩
  | 4 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x128, .bf16⟩
  | .local _ .vmem, ⟨8, _⟩ => ⟨S10000x128, .f32⟩
  | .local _ .vmem, ⟨9, _⟩ => ⟨S10000x128, .f32⟩
  | .local _ .vmem, ⟨10, _⟩ => ⟨S10000x128, .bf16⟩
  | .local _ .vmem, ⟨11, _⟩ => ⟨S10000x128, .bf16⟩
  | .local _ .vmem, ⟨12, _⟩ => ⟨S128x10, .bf16⟩
  | .local _ .vmem, ⟨13, _⟩ => ⟨S1x10, .f32⟩
  | .local _ .vmem, ⟨14, _⟩ => ⟨S10000x10, .f32⟩
  | .local _ .vmem, ⟨15, _⟩ => ⟨S10000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call3_cst : Ref sig .tc := ⟨.hbm, 126, rfl⟩
abbrev main_call3_v0 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  inb_S10000x10_S10000x10_0_0 : ∀ a, (![0, 0] : Fin 2 → Nat) a + S10000x10.size a ≤ S10000x10.size a
  h_S10000x10 : 0 < S10000x10.numel
  dot_S10000x128_S128x128_S10000x128_1_0_0_1_n_n_wf : DotDims.WF S10000x128 S128x128 S10000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x10_S10000x10_1_0_0_1_n_n_wf : DotDims.WF S10000x128 S128x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .bf16 = 32 ∨ (Rect.block (s := S50000x128) S10000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .bf16 = 32 ∨ (Rect.block (s := S128x10) S128x10.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x10.size a ≤ S50000x10.size a
  hwx2_3 : ∀ i : grid2.Coords, EltTy.bits .f32 = 32 ∨ (Rect.block (s := S50000x10) S10000x10.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

abbrev win0_0 : Pipeline.Window sig grid0 :=
  Pipeline.Window.ofSpec (Memref.whole main_v7) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v95) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98) S10000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x10 : Shape := ⟨2, ![50000, 10]⟩
abbrev S1x10 : Shape := ⟨2, ![1, 10]⟩
abbrev S50000x1 : Shape := ⟨2, ![50000, 1]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x128, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x10, .f32⟩
  | _ => ⟨S50000x128, .f32⟩

abbrev hbmTy0_1 (i : Nat) : BufTy := match i % 128 with
  | 0 => ⟨S1x10, .f32⟩
  | 1 => ⟨S50000x10, .f32⟩
  | 2 => ⟨S50000x10, .f32⟩
  | 3 => ⟨S_, .f32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x10, .f32⟩
  | 10 => ⟨S50000x10, .f32⟩
  | 11 => ⟨S50000x10, .f32⟩
  | 12 => ⟨S_, .f32⟩
  | 13 => ⟨S50000, .f32⟩
  | 14 => ⟨S50000x1, .f32⟩
  | 15 => ⟨S50000x1, .f32⟩
  | 16 => ⟨S50000x10, .f32⟩
  | 17 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call4_cst : Ref sig .tc := ⟨.hbm, 131, rfl⟩
abbrev main_call4_v0 : Ref sig .tc := ⟨.hbm, 132, rfl⟩
abbrev main_call4_cst_0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_1 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_v93 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x10_S50000x10_1_0_0_1_n_n_wf : DotDims.WF S50000x128 S128x10 S50000x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KernelRun.lean ====
/-
  The whole program's run with its result named.

  The program is three grid regions among stretches of host operations. Every boundary between two segments has
  its buffer contents: a stretch's are the fold of its operations over the contents before it, a region's are the
  contents before it with the region's arrays replaced by what its write-backs leave. Run from any memory, every
  weakly fair execution ends with every buffer outside the regions' staging storage at the last boundary's
  contents. This module reads that off at the result's buffer as well as at the arguments'.
-/
import proofs.«167436_j15522011808341_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, nothing faulting, with the result's buffer at the last boundary's contents and
    the argument arrays as launched. -/
theorem run : θ_run defs (onTc (τ := τ) (main (F := F))) ⟨m, fun _ => 0, ρ⟩ (fun r => ∀ c : Dev nD,
      r.2.mem ((c.tc : Thread nD τ).loc main_v98) = W14 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v98 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.RunValue

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibMatProd.lean ====
/-
  The matrix product as one function of two arrays, over the extended reals.

  `matProd a w` at `(p, q)` is the sum over `k` of `a (p, k) * w (k, q)`. Addition of extended reals is commutative
  and associative, so the sum needs no order and no blocking: a product computed row block by row block and a product
  computed at once are the same array. Both a kernel's matmul into the zero accumulator and a host `dot_general`, with
  the plain dimension numbers, are this function; and a change of float format on the way in is the identity.
-/
import Idealize.ShloMosaic.PureOps.Ideal
import Idealize.ShloMosaic.PureOps.Ideal.Laws
import Idealize.ShloMosaic.Lib.ValueIdx
import proofs.«167436_j15522011808341_1_alg».proof.Proof.LibPlainDot

noncomputable section

namespace Idealize.ShloMosaic.MatProd

open Idealize.ShloMosaic Idealize.ShloMosaic.ValueIdx

/-- The product of an `M×K` array with a `K×N` array, entry by entry. -/
def matProd {M K N : ℕ} {φ₁ φ₂ : FTy} (a : FVec Ideal ⟨2, ![M, K]⟩ φ₁) (w : FVec Ideal ⟨2, ![K, N]⟩ φ₂) :
    FVec Ideal ⟨2, ![M, N]⟩ .f32 :=
  fun i => ∑ k : Fin K, a (ix2 (i 0) k) * w (ix2 k (i 1))

/-- A kernel's matmul into the zero accumulator, read at the entry `(p, q)`. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂)
    (y : (⟨2, ![M, N]⟩ : Shape).Idx) (p : Fin M) (q : Fin N) (hy : y = ix2 p q) :
    FloatOps.matmul d prec lhs rhs (constant ⟨2, ![M, N]⟩ .f32 0x00000000#32) y
      = ∑ k : Fin K, lhs (ix2 p k) * rhs (ix2 k q) := by
  subst hy
  exact PlainDot.matmul_zero_apply d hd prec lhs rhs p q

/-- A host `dot_general` with the plain dimension numbers is the matrix product. -/
theorem dotGeneral_eq_matProd {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) :
    FloatOps.dotGeneral d prec sched lhs rhs = matProd lhs rhs := by
  funext j
  obtain ⟨p, q, rfl⟩ : ∃ (p : Fin M) (q : Fin N), j = ix2 p q := ⟨j 0, j 1, eq_ix2 j⟩
  exact PlainDot.dotGeneral_apply d hd prec sched lhs rhs p q

/-- Narrowing both operands' float format first changes nothing: at the ideal values a format change is the identity. -/
theorem matProd_truncf {M K N : ℕ} {φ₁ φ₂ ψ₁ ψ₂ : FTy} (a : FVec Ideal ⟨2, ![M, K]⟩ φ₁) (w : FVec Ideal ⟨2, ![K, N]⟩ φ₂)
    (h₁ : ψ₁.bits < φ₁.bits) (h₂ : ψ₂.bits < φ₂.bits) :
    matProd (truncf ψ₁ a h₁) (truncf ψ₂ w h₂) = matProd a w := rfl

end Idealize.ShloMosaic.MatProd

end
-- ==== Proof.ProjRegion0.lean ====
/-
  What grid region 0 leaves in its output array: a matrix product.

  The region cuts the rows of a 50000 x 128 array into five blocks of 10000 rows. At each grid point the body
  loads one block of rows and the whole 128 x 128 weight array, multiplies them into a zero accumulator and
  stores the 10000 x 128 product, which is written back as the same block of rows of the output. An entry
  (r, q) of a matrix product is the sum over k of lhs (r, k) * rhs (k, q): it reads row r of the left operand
  only, so the block that holds row r computes it whole. The five blocks tile the 50000 rows, hence the output
  array is the matrix product of the two arrays the region was entered with.
-/
import proofs.«167436_j15522011808341_1_alg».proof.Proof.Gen.KernelIdeal.Frame
import proofs.«167436_j15522011808341_1_alg».proof.Proof.LibMatProd
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The stored block at (p, q): row p of the loaded rows against column q of the weights. -/
theorem entry (x0 : FVec Ideal S10000x128 .bf16) (x1 : FVec Ideal S128x128 .bf16) (p : Fin 10000) (q : Fin 128) :
    k0_pay1 (F := Ideal) x0 x1 (ix2 p q) = ∑ k : Fin 128, x0 (ix2 p k) * x1 (ix2 k q) := by
  show matmul dot_S10000x128_S128x128_S10000x128_1_0_0_1_n_n none (shapeCast S10000x128 x0 shapeCasts_S10000x128_S10000x128)
      (shapeCast S128x128 x1 shapeCasts_S128x128_S128x128) (constant S10000x128 .f32 0x00000000#32) (ix2 p q) = _
  rw [shapeCast_self, shapeCast_self]
  exact MatProd.matmul_zero_at _ rfl none x0 x1 _ p q rfl

/-- If row (y 0) of the loaded block is row (i 0) of an array A, the loaded weights are B, and the two indices
    name the same column, the stored block at y is the product A · B at i. -/
theorem tile (A : FVec Ideal S50000x128 .bf16) (B : FVec Ideal S128x128 .bf16)
    (x0 : FVec Ideal S10000x128 .bf16) (x1 : FVec Ideal S128x128 .bf16) (y : S10000x128.Idx) (i : S50000x128.Idx)
    (hy0 : (y 0).val < 10000) (hi0 : (i 0).val < 50000) (hq : (i 1).val = (y 1).val)
    (h0 : ∀ k : Fin 128, x0 (ix2 (⟨(y 0).val, hy0⟩ : Fin 10000) k) = A (ix2 (⟨(i 0).val, hi0⟩ : Fin 50000) k))
    (h1 : x1 = B) :
    k0_pay1 (F := Ideal) x0 x1 y = MatProd.matProd A B i := by
  subst h1
  obtain ⟨p, q, rfl⟩ : ∃ (p : Fin 10000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hq
  subst hs
  have h0' : ∀ k : Fin 128, x0 (ix2 p k) = A (ix2 r k) := h0
  rw [entry]
  show _ = ∑ k : Fin 128, A (ix2 r k) * x1 (ix2 k s)
  exact Finset.sum_congr rfl fun k _ => by rw [h0' k]

/-- The index maps over the grid: the row blocks of the left operand and of the output move together, the weights'
    block and every column block stay at 0, and there are five row blocks. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every one of the five row blocks is some grid point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- What grid point t writes back is block t of the product of the two arrays as the region finds them. -/
theorem flushed_eq (c : Dev nD) (t : Fin cfg0.N) :
    (dat0 V c).flushed 2 t = ((cfg0.win 2).blk t).view.read (Elt Ideal)
      (MatProd.matProd (M := 50000) (K := 128) (N := 128) (φ₁ := .bf16) (φ₂ := .bf16) (V c main_v7) (V c main_v8)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := idx_facts t
  funext j
  have hj0 : (j 0).val < 10000 := (j 0).isLt
  have hj1 : (j 1).val < 128 := (j 1).isLt
  show k0_pay1 (F := Ideal) (iblk0 V c 0 t) (iblk0 V c 1 t) j
    = MatProd.matProd (M := 50000) (K := 128) (N := 128) (φ₁ := .bf16) (φ₂ := .bf16) (V c main_v7) (V c main_v8) (((cfg0.win 2).blk t).view.emb j)
  refine tile (V c main_v7) (V c main_v8) (iblk0 V c 0 t) (iblk0 V c 1 t) j (((cfg0.win 2).blk t).view.emb j) hj0
    ((((cfg0.win 2).blk t).view.emb j) 0).isLt ?_ ?_ ?_
  · show win0_2.index t (1 : Fin 2) * 128 + 1 * (j 1).val = (j 1).val
    omega
  · intro k
    show V c main_v7 (((cfg0.win 0).blk t).view.emb (ix2 (⟨(j 0).val, hj0⟩ : Fin 10000) k)) = V c main_v7 _
    refine congrArg (V c main_v7) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · funext y
    show V c main_v8 (((cfg0.win 1).blk t).view.emb y) = V c main_v8 y
    refine congrArg (V c main_v8) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the output array lies in point t's block iff each coordinate lies in the block's range. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v9).slice (win0_2.rect t)).set ↔ _
  rw [View.set_slice_whole, Rect.mem_set_unit]
  exact Iff.rfl

/-- Row r lies in the block of rows number r / 10000: the blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region is the product of the two input arrays as the region found them. -/
theorem array_eq (c : Dev nD) :
    (dat0 V c).arrAt 2 cfg0.N
      = MatProd.matProd (M := 50000) (K := 128) (N := 128) (φ₁ := .bf16) (φ₂ := .bf16) (V c main_v7) (V c main_v8) :=
  (dat0 V c).arrAt_eq_of_cover 2 _ (fun t _ => flushed_eq V c t) (fun i => cover i)

end Cert.KernelIdeal.Region0

end
-- ==== Proof.ProjRegion1.lean ====
/-
  What grid region 1 leaves in its output array: a matrix product.

  The region cuts the rows of a 50000 x 128 array into five blocks of 10000 rows. At each grid point the body
  loads one block of rows and the whole 128 x 128 weight array, multiplies them into a zero accumulator and
  stores the 10000 x 128 product, which is written back as the same block of rows of the output. An entry
  (r, q) of a matrix product is the sum over k of lhs (r, k) * rhs (k, q): it reads row r of the left operand
  only, so the block that holds row r computes it whole. The five blocks tile the 50000 rows, hence the output
  array is the matrix product of the two arrays the region was entered with.
-/
import proofs.«167436_j15522011808341_1_alg».proof.Proof.Gen.KernelIdeal.Frame
import proofs.«167436_j15522011808341_1_alg».proof.Proof.LibMatProd
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The stored block at (p, q): row p of the loaded rows against column q of the weights. -/
theorem entry (x0 : FVec Ideal S10000x128 .bf16) (x1 : FVec Ideal S128x128 .bf16) (p : Fin 10000) (q : Fin 128) :
    k1_pay1 (F := Ideal) x0 x1 (ix2 p q) = ∑ k : Fin 128, x0 (ix2 p k) * x1 (ix2 k q) := by
  show matmul dot_S10000x128_S128x128_S10000x128_1_0_0_1_n_n none (shapeCast S10000x128 x0 shapeCasts_S10000x128_S10000x128)
      (shapeCast S128x128 x1 shapeCasts_S128x128_S128x128) (constant S10000x128 .f32 0x00000000#32) (ix2 p q) = _
  rw [shapeCast_self, shapeCast_self]
  exact MatProd.matmul_zero_at _ rfl none x0 x1 _ p q rfl

/-- If row (y 0) of the loaded block is row (i 0) of an array A, the loaded weights are B, and the two indices
    name the same column, the stored block at y is the product A · B at i. -/
theorem tile (A : FVec Ideal S50000x128 .bf16) (B : FVec Ideal S128x128 .bf16)
    (x0 : FVec Ideal S10000x128 .bf16) (x1 : FVec Ideal S128x128 .bf16) (y : S10000x128.Idx) (i : S50000x128.Idx)
    (hy0 : (y 0).val < 10000) (hi0 : (i 0).val < 50000) (hq : (i 1).val = (y 1).val)
    (h0 : ∀ k : Fin 128, x0 (ix2 (⟨(y 0).val, hy0⟩ : Fin 10000) k) = A (ix2 (⟨(i 0).val, hi0⟩ : Fin 50000) k))
    (h1 : x1 = B) :
    k1_pay1 (F := Ideal) x0 x1 y = MatProd.matProd A B i := by
  subst h1
  obtain ⟨p, q, rfl⟩ : ∃ (p : Fin 10000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hq
  subst hs
  have h0' : ∀ k : Fin 128, x0 (ix2 p k) = A (ix2 r k) := h0
  rw [entry]
  show _ = ∑ k : Fin 128, A (ix2 r k) * x1 (ix2 k s)
  exact Finset.sum_congr rfl fun k _ => by rw [h0' k]

/-- The index maps over the grid: the row blocks of the left operand and of the output move together, the weights'
    block and every column block stay at 0, and there are five row blocks. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every one of the five row blocks is some grid point's. -/
theorem idx_onto : ∀ q0 : Fin 5, ∃ t : Fin cfg1.N, win1_2.index t = ![q0.val, 0] :=
  (by decide +kernel : ∀ q0 : Fin 5, ∃ t : Fin grid1.N, win1_2.index t = ![q0.val, 0])

/-- What grid point t writes back is block t of the product of the two arrays as the region finds them. -/
theorem flushed_eq (c : Dev nD) (t : Fin cfg1.N) :
    (dat1 V c).flushed 2 t = ((cfg1.win 2).blk t).view.read (Elt Ideal)
      (MatProd.matProd (M := 50000) (K := 128) (N := 128) (φ₁ := .bf16) (φ₂ := .bf16) (V c main_v51) (V c main_v52)) := by
  show (cfg1.win 2).cut (grid1.coords t) ((dat1 V c).after 2 t) = _
  rw [after1_2]
  unfold out1_2
  rw [View.canon_unit_zero origin]
  simp only [View.ld_unit_zero (S := S10000x128) origin, View.ld_unit_zero (S := S128x128) origin]
  obtain ⟨e0, e1, e2, e3, e4, e5⟩ := idx_facts t
  funext j
  have hj0 : (j 0).val < 10000 := (j 0).isLt
  have hj1 : (j 1).val < 128 := (j 1).isLt
  show k1_pay1 (F := Ideal) (iblk1 V c 0 t) (iblk1 V c 1 t) j
    = MatProd.matProd (M := 50000) (K := 128) (N := 128) (φ₁ := .bf16) (φ₂ := .bf16) (V c main_v51) (V c main_v52) (((cfg1.win 2).blk t).view.emb j)
  refine tile (V c main_v51) (V c main_v52) (iblk1 V c 0 t) (iblk1 V c 1 t) j (((cfg1.win 2).blk t).view.emb j) hj0
    ((((cfg1.win 2).blk t).view.emb j) 0).isLt ?_ ?_ ?_
  · show win1_2.index t (1 : Fin 2) * 128 + 1 * (j 1).val = (j 1).val
    omega
  · intro k
    show V c main_v51 (((cfg1.win 0).blk t).view.emb (ix2 (⟨(j 0).val, hj0⟩ : Fin 10000) k)) = V c main_v51 _
    refine congrArg (V c main_v51) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · funext y
    show V c main_v52 (((cfg1.win 1).blk t).view.emb y) = V c main_v52 y
    refine congrArg (V c main_v52) ?_
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega

/-- An index of the output array lies in point t's block iff each coordinate lies in the block's range. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v53).slice (win1_2.rect t)).set ↔ _
  rw [View.set_slice_whole, Rect.mem_set_unit]
  exact Iff.rfl

/-- Row r lies in the block of rows number r / 10000: the blocks cover the array. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region is the product of the two input arrays as the region found them. -/
theorem array_eq (c : Dev nD) :
    (dat1 V c).arrAt 2 cfg1.N
      = MatProd.matProd (M := 50000) (K := 128) (N := 128) (φ₁ := .bf16) (φ₂ := .bf16) (V c main_v51) (V c main_v52) :=
  (dat1 V c).arrAt_eq_of_cover 2 _ (fun t _ => flushed_eq V c t) (fun i => cover i)

end Cert.KernelIdeal.Region1

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibGraphConvLayers.lean ====
/-
  The dense layers of a two-layer graph convolution, entry by entry over the extended reals.

  Between the neighbourhood sums a graph convolution applies, row by row, three dense maps:

    * the feature transform `x ↦ x · w`: at `(p, q)` the sum over `k` of `x (p, k) * w (k, q)`;
    * the hidden layer `a ↦ relu (a + b) · w`: the same sum with `max (a (p, k) + b k) 0` in place of `x (p, k)`;
    * the read-out `a ↦ log_softmax (a + b)` along each row: with `z k = a (p, k) + b k` and `μ` the maximum of the
      row's `z`, the entry at `(p, q)` is `(z q - μ) - log (∑ k, exp (z k - μ))`.

  Each entry depends on ONE row of the row-indexed operand only, so any tiling of the rows computes the same array.
  The zero of `relu` and the starting value of the row maximum are kept as the float words `0x00000000` and
  `0xFF800000` read at the ideal values: the same words stand on both sides of every comparison and are never evaluated,
  except that the row sum's starting word `0x00000000` is the number zero.

  The second half states the host's spelling of each map (a `dot_general`; `broadcast_in_dim`s of the bias,
  `maximum` with a broadcast zero, a `dot_general`; reductions kept as `[m, 1]` columns and spread back) as these
  functions of whole arrays.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167436_j15522011808341_1_alg».proof.Proof.LibMatProd
import proofs.«167436_j15522011808341_1_alg».proof.Proof.LibDense
import proofs.«167436_j15522011808341_1_alg».proof.Proof.LibRowReduce
import proofs.«167436_j15522011808341_1_alg».proof.Proof.LibRegionBlockSpread

noncomputable section

namespace GraphConvLayers

open Idealize.ShloMosaic Idealize.ShloMosaic.ValueIdx

/-- The float word zero, read at the ideal values. -/
abbrev zeroWord : EReal := Ideal.ofBits .f32 0x00000000#32
/-- The float word the row maximum starts from, read at the ideal values. -/
abbrev lowWord : EReal := Ideal.ofBits .f32 0xFF800000#32

/-- `relu (a + b)`, the bias `b` added along each row. -/
def biasRelu {M K : ℕ} (a : FVec Ideal ⟨2, ![M, K]⟩ .f32) (b : FVec Ideal ⟨1, ![K]⟩ .f32) : FVec Ideal ⟨2, ![M, K]⟩ .f32 :=
  fun i => max (a i + b (ix1 (i 1))) zeroWord

theorem biasRelu_apply {M K : ℕ} (a : FVec Ideal ⟨2, ![M, K]⟩ .f32) (b : FVec Ideal ⟨1, ![K]⟩ .f32) (p : Fin M) (k : Fin K) :
    biasRelu a b (ix2 p k) = max (a (ix2 p k) + b (ix1 k)) zeroWord := rfl

/-- The hidden layer `relu (a + b) · w`. -/
def hidden {M K N : ℕ} (a : FVec Ideal ⟨2, ![M, K]⟩ .f32) (b : FVec Ideal ⟨1, ![K]⟩ .f32) (w : FVec Ideal ⟨2, ![K, N]⟩ .f32) :
    FVec Ideal ⟨2, ![M, N]⟩ .f32 :=
  MatProd.matProd (biasRelu a b) w

theorem hidden_apply {M K N : ℕ} (a : FVec Ideal ⟨2, ![M, K]⟩ .f32) (b : FVec Ideal ⟨1, ![K]⟩ .f32)
    (w : FVec Ideal ⟨2, ![K, N]⟩ .f32) (p : Fin M) (q : Fin N) :
    hidden a b w (ix2 p q) = ∑ k : Fin K, max (a (ix2 p k) + b (ix1 k)) zeroWord * w (ix2 k q) := rfl

/-- Row `p` of `a + b`. -/
def biasedRow {M N : ℕ} (a : FVec Ideal ⟨2, ![M, N]⟩ .f32) (b : FVec Ideal ⟨1, ![N]⟩ .f32) (p : Fin M) : Fin N → EReal :=
  fun k => a (ix2 p k) + b (ix1 k)

/-- The maximum of a row, folded from the starting word. -/
def rowMax {N : ℕ} (z : Fin N → EReal) : EReal := (Finset.univ : Finset (Fin N)).fold max lowWord z

/-- `log_softmax` of one row at one position. -/
def rowLogSoftmax {N : ℕ} (z : Fin N → EReal) (q : Fin N) : EReal :=
  (z q - rowMax z) - Ideal.log (∑ k : Fin N, Ideal.exp (z k - rowMax z))

/-- The read-out `log_softmax (a + b)` along each row. -/
def biasLogSoftmax {M N : ℕ} (a : FVec Ideal ⟨2, ![M, N]⟩ .f32) (b : FVec Ideal ⟨1, ![N]⟩ .f32) : FVec Ideal ⟨2, ![M, N]⟩ .f32 :=
  fun i => rowLogSoftmax (biasedRow a b (i 0)) (i 1)

theorem biasLogSoftmax_apply {M N : ℕ} (a : FVec Ideal ⟨2, ![M, N]⟩ .f32) (b : FVec Ideal ⟨1, ![N]⟩ .f32) (p : Fin M) (q : Fin N) :
    biasLogSoftmax a b (ix2 p q) = rowLogSoftmax (biasedRow a b p) q := rfl

/-- Taking the maximum with the starting word once more changes nothing: the fold already lies above it. -/
theorem max_low_rowMax {N : ℕ} (z : Fin N → EReal) : max lowWord (rowMax z) = rowMax z :=
  max_eq_right ((Finset.le_fold_max lowWord).mpr (Or.inl le_rfl))

/-- A vector reshaped to one row and read back along that row is the vector. -/
theorem rowOf_cast {K : ℕ} (b : FVec Ideal ⟨1, ![K]⟩ .f32) (h : (⟨1, ![K]⟩ : Shape).ShapeCasts ⟨2, ![1, K]⟩) :
    (fun j : (⟨1, ![K]⟩ : Shape).Idx => shapeCast ⟨2, ![1, K]⟩ b h (ix2 (0 : Fin 1) (j 0 : Fin K))) = b := by
  funext j
  obtain ⟨k, rfl⟩ : ∃ k : Fin K, j = ix1 k := ⟨j 0, eq_ix1 j⟩
  exact shapeCast_a_1a_apply b h (0 : Fin 1) k

/-! ## The host's spelling of the three maps -/

/-- The host's hidden layer: the bias spread by two `broadcast_in_dim`s, `maximum` with a broadcast zero, a
    `dot_general` with the plain dimension numbers. -/
theorem host_hidden {M K N : ℕ} (d : DotDims ⟨2, ![M, K]⟩ ⟨2, ![K, N]⟩ ⟨2, ![M, N]⟩) (hd : d = DotDims.plain M K N)
    (prec : Option ContractPrecision) (sched : HostSchedule)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨1, ![K]⟩ .f32) (w : FVec Ideal ⟨2, ![K, N]⟩ .f32) :
    FloatOps.dotGeneral d prec sched
        (maximumf (addf a (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) w
      = hidden a b w := by
  rw [MatProd.dotGeneral_eq_matProd d hd]
  unfold hidden
  refine congrArg (fun v => MatProd.matProd v w) (funext fun i => ?_)
  obtain ⟨p, k, rfl⟩ : ∃ (p : Fin M) (k : Fin K), i = ix2 p k := ⟨i 0, i 1, eq_ix2 i⟩
  rw [biasRelu_apply, maximumf_apply, addf_apply, DenseLayer.inDimRow_apply]
  rfl

/-- The host's read-out: the bias spread by two `broadcast_in_dim`s; the row maximum by a `reduce` from the starting
    word, once more `maximum` with that word, kept as a column and spread back; `exponential`; the row sum by a
    `reduce` from zero, kept as a column, `log`, spread back. -/
theorem host_biasLogSoftmax {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (hr : (⟨2, ![M, N]⟩ : Shape).ReducesTo [1] ⟨1, ![M]⟩) (hr' : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hc : (⟨1, ![M]⟩ : Shape).BroadcastsInDim ⟨2, ![M, 1]⟩ ![0])
    (hs : (⟨2, ![M, 1]⟩ : Shape).BroadcastsInDim ⟨2, ![M, N]⟩ ![0, 1])
    (a : FVec Ideal ⟨2, ![M, N]⟩ .f32) (b : FVec Ideal ⟨1, ![N]⟩ .f32) :
    let z : FVec Ideal ⟨2, ![M, N]⟩ .f32 :=
        addf a (broadcastInDim ⟨2, ![M, N]⟩ ![0, 1] h2 (broadcastInDim ⟨2, ![1, N]⟩ ![1] h1 b))
    let sh : FVec Ideal ⟨2, ![M, N]⟩ .f32 :=
        subf z (broadcastInDim ⟨2, ![M, N]⟩ ![0, 1] hs (broadcastInDim ⟨2, ![M, 1]⟩ ![0] hc
          (maximumf (broadcastInDim ⟨1, ![M]⟩ ![] hb0 (constant (F := Ideal) ⟨0, ![]⟩ .f32 0xFF800000#32))
            (Host.reduce FloatOps.maximumf z (constant (F := Ideal) ⟨0, ![]⟩ .f32 0xFF800000#32) hr hu))))
    subf sh (broadcastInDim ⟨2, ![M, N]⟩ ![0, 1] hs (Host.log (broadcastInDim ⟨2, ![M, 1]⟩ ![0] hc
        (Host.reduceAdd (Host.exp sh) (constant (F := Ideal) ⟨0, ![]⟩ .f32 0x00000000#32) hr hu))))
      = biasLogSoftmax a b := by
  intro z sh
  have hz : ∀ (p : Fin M) (k : Fin N), z (ix2 p k) = biasedRow a b p k := fun p k => by
    show a (ix2 p k) + _ = _
    rw [DenseLayer.inDimRow_apply]; rfl
  have hsh : ∀ (p : Fin M) (k : Fin N), sh (ix2 p k) = biasedRow a b p k - rowMax (biasedRow a b p) := fun p k => by
    show z (ix2 p k) - _ = _
    rw [KeepDims.broadcastInDim_a1_ab_apply, KeepDims.broadcastInDim_a_a1_apply, maximumf_apply,
      RowReduce.hostReduce_maximumf_row z _ hr hr' hu p, hz]
    have e : (fun k => z (ix2 p k)) = biasedRow a b p := funext fun k => hz p k
    rw [e]
    exact congrArg (fun t => biasedRow a b p k - t) (max_low_rowMax (biasedRow a b p))
  funext i
  obtain ⟨p, q, rfl⟩ : ∃ (p : Fin M) (q : Fin N), i = ix2 p q := ⟨i 0, i 1, eq_ix2 i⟩
  rw [biasLogSoftmax_apply]
  show sh (ix2 p q) - _ = _
  rw [KeepDims.broadcastInDim_a1_ab_apply]
  have hlog : ∀ (v : FVec Ideal ⟨2, ![M, 1]⟩ .f32) (j : (⟨2, ![M, 1]⟩ : Shape).Idx), Host.log v j = Ideal.log (v j) :=
    fun _ _ => rfl
  rw [hlog, KeepDims.broadcastInDim_a_a1_apply, RowReduce.hostReduceAdd_row _ _ hr hr' hu p, hsh]
  have e : (fun k => Host.exp sh (ix2 p k)) = fun k => Ideal.exp (biasedRow a b p k - rowMax (biasedRow a b p)) :=
    funext fun k => congrArg Ideal.exp (hsh p k)
  unfold rowLogSoftmax
  refine congrArg (fun t => (biasedRow a b p q - rowMax (biasedRow a b p)) - Ideal.log t) ?_
  rw [show (∑ k : Fin N, Host.exp sh (ix2 p k)) = ∑ k : Fin N, Ideal.exp (biasedRow a b p k - rowMax (biasedRow a b p)) from
    Finset.sum_congr rfl fun k _ => congrFun e k]
  show Ideal.ofBits .f32 0x00000000#32 + _ = _
  rw [Ideal.ofBits_zero_f32, zero_add]

end GraphConvLayers

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRowVec.lean ====
/-
  A one-row matrix read as a vector.

  A bias enters each dense stage as a `[1, K]` row. Read along that row it is a vector of length `K`; and a vector
  reshaped to one row and read back along the row is the vector itself.
-/
import Idealize.ShloMosaic.Lib.ValueIdx
import Idealize.ShloMosaic.Lib.ValueLayout
import Idealize.ShloMosaic.Lib.Pipeline.Value

noncomputable section

namespace Gcn

open Idealize.ShloMosaic Idealize.ShloMosaic.ValueIdx

/-- The entries of a `[1, K]` row, as a vector of length `K`. -/
def rowVec {K : ℕ} {α : Type} (br : (⟨2, ![1, K]⟩ : Shape).Idx → α) : (⟨1, ![K]⟩ : Shape).Idx → α :=
  fun j => br (ix2 (0 : Fin 1) (j 0))

theorem rowVec_apply {K : ℕ} {α : Type} (br : (⟨2, ![1, K]⟩ : Shape).Idx → α) (k : Fin K) :
    rowVec br (ix1 k) = br (ix2 (0 : Fin 1) k) := rfl

/-- A vector reshaped to one row and read back along that row is the vector. -/
theorem rowVec_shapeCast {K : ℕ} {α : Type} (b : (⟨1, ![K]⟩ : Shape).Idx → α)
    (h : (⟨1, ![K]⟩ : Shape).ShapeCasts ⟨2, ![1, K]⟩) : rowVec (shapeCast ⟨2, ![1, K]⟩ b h) = b := by
  funext j
  obtain ⟨k, rfl⟩ : ∃ k : Fin K, j = ix1 k := ⟨j 0, eq_ix1 j⟩
  exact shapeCast_a_1a_apply b h (0 : Fin 1) k

end Gcn

end
-- ==== Proof.LibTileRows.lean ====
/-
  Two row-wise maps of a bias-shifted matrix, as a kernel body spells them, read at an index.

  A body receives a block `a` of `T` rows of width `n` and a one-row array `br` of the same width.

    * `relu`: the row is spread over the `T` rows, added, and compared with a splat of the zero word. At `(p, k)` this is
      `max (a (p, k) + br (0, k)) 0`.
    * `log_softmax`: with `z k = a (p, k) + br (0, k)`, the row maximum `μ` is reduced from the low word, kept as a
      column and spread back; `z - μ` is exponentiated and summed along the row (the sum's starting word is the number
      zero, so it adds nothing), the logarithm of that column is spread back and subtracted. At `(p, q)` this is
      `(z q - μ) - log (∑ k, exp (z k - μ))`.

  In both, the entry at `(p, ·)` reads row `p` of `a` only (and the whole of `br`).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167436_j15522011808341_1_alg».proof.Proof.LibRowReduce
import proofs.«167436_j15522011808341_1_alg».proof.Proof.LibColumns
import proofs.«167436_j15522011808341_1_alg».proof.Proof.LibGraphConvLayers
import proofs.«167436_j15522011808341_1_alg».proof.Proof.LibRowVec

noncomputable section

namespace TileRows

open Idealize.ShloMosaic Idealize.ShloMosaic.ValueIdx

/-- The bias-shifted block at an index: the block's entry plus the one row's entry in the same column. -/
theorem biased_apply {T n : ℕ} (a : FVec Ideal ⟨2, ![T, n]⟩ .f32) (br : FVec Ideal ⟨2, ![1, n]⟩ .f32)
    (ha : (⟨2, ![T, n]⟩ : Shape).ShapeCasts ⟨2, ![T, n]⟩) (hb : (⟨2, ![1, n]⟩ : Shape).ShapeCasts ⟨2, ![1, n]⟩)
    (hs : (⟨2, ![1, n]⟩ : Shape).Broadcasts ⟨2, ![T, n]⟩) (p : Fin T) (k : Fin n) :
    addf (shapeCast ⟨2, ![T, n]⟩ a ha) (broadcastTo ⟨2, ![T, n]⟩ (shapeCast ⟨2, ![1, n]⟩ br hb) hs) (ix2 p k)
      = GraphConvLayers.biasedRow a (Gcn.rowVec br) p k := by
  rw [shapeCast_self, shapeCast_self, addf_apply, broadcastTo_1b_ab_apply]
  rfl

/-- The `relu` body at `(p, k)`. -/
theorem biasRelu_body {T n : ℕ} (a : FVec Ideal ⟨2, ![T, n]⟩ .f32) (br : FVec Ideal ⟨2, ![1, n]⟩ .f32)
    (ha : (⟨2, ![T, n]⟩ : Shape).ShapeCasts ⟨2, ![T, n]⟩) (hb : (⟨2, ![1, n]⟩ : Shape).ShapeCasts ⟨2, ![1, n]⟩)
    (hs : (⟨2, ![1, n]⟩ : Shape).Broadcasts ⟨2, ![T, n]⟩) (p : Fin T) (k : Fin n) :
    maximumf (addf (shapeCast ⟨2, ![T, n]⟩ a ha) (broadcastTo ⟨2, ![T, n]⟩ (shapeCast ⟨2, ![1, n]⟩ br hb) hs))
        (broadcast ⟨2, ![T, n]⟩ (Scalar.ofBits (F := Ideal) .f32 0x00000000#32)) (ix2 p k)
      = GraphConvLayers.biasRelu a (Gcn.rowVec br) (ix2 p k) := by
  rw [maximumf_apply, biased_apply, broadcast_apply]
  rfl

/-- The `log_softmax` body at `(p, q)`. -/
theorem biasLogSoftmax_body {T n : ℕ} (a : FVec Ideal ⟨2, ![T, n]⟩ .f32) (br : FVec Ideal ⟨2, ![1, n]⟩ .f32)
    (ha : (⟨2, ![T, n]⟩ : Shape).ShapeCasts ⟨2, ![T, n]⟩) (hb : (⟨2, ![1, n]⟩ : Shape).ShapeCasts ⟨2, ![1, n]⟩)
    (hs : (⟨2, ![1, n]⟩ : Shape).Broadcasts ⟨2, ![T, n]⟩)
    (hr : (⟨2, ![T, n]⟩ : Shape).Reduces [1] ⟨1, ![T]⟩)
    (hc : (⟨1, ![T]⟩ : Shape).ShapeCasts ⟨2, ![T, 1]⟩)
    (hw : (⟨2, ![T, 1]⟩ : Shape).Broadcasts ⟨2, ![T, n]⟩)
    (hφ : FKind.Formats .f32)
    (hmax : (0xFF800000#32 : BitVec FTy.f32.bits) = FKind.maximumf.neutral .f32 hφ)
    (hadd : (0x00000000#32 : BitVec FTy.f32.bits) = FKind.add.neutral .f32 hφ)
    (p : Fin T) (q : Fin n) :
    let z : FVec Ideal ⟨2, ![T, n]⟩ .f32 :=
      addf (shapeCast ⟨2, ![T, n]⟩ a ha) (broadcastTo ⟨2, ![T, n]⟩ (shapeCast ⟨2, ![1, n]⟩ br hb) hs)
    let sh : FVec Ideal ⟨2, ![T, n]⟩ .f32 :=
      subf z (broadcastTo ⟨2, ![T, n]⟩ (shapeCast ⟨2, ![T, 1]⟩
        (multiReduction (F := Ideal) .maximumf [1] ⟨1, ![T]⟩ z 0xFF800000#32 hr hφ hmax) hc) hw)
    subf sh (broadcastTo ⟨2, ![T, n]⟩ (log (shapeCast ⟨2, ![T, 1]⟩
        (multiReduction (F := Ideal) .add [1] ⟨1, ![T]⟩ (exp sh) 0x00000000#32 hr hφ hadd) hc)) hw) (ix2 p q)
      = GraphConvLayers.biasLogSoftmax a (Gcn.rowVec br) (ix2 p q) := by
  intro z sh
  have hz : ∀ k : Fin n, z (ix2 p k) = GraphConvLayers.biasedRow a (Gcn.rowVec br) p k := fun k =>
    biased_apply a br ha hb hs p k
  have hzrow : (fun k => z (ix2 p k)) = GraphConvLayers.biasedRow a (Gcn.rowVec br) p := funext hz
  have hsh : ∀ k : Fin n, sh (ix2 p k)
      = GraphConvLayers.biasedRow a (Gcn.rowVec br) p k - GraphConvLayers.rowMax (GraphConvLayers.biasedRow a (Gcn.rowVec br) p) :=
    fun k => by
      show z (ix2 p k) - _ = _
      rw [broadcastTo_a1_ab_apply, RowReduce.shapeCast_a_a1_apply, RowReduce.multiReduction_maximumf_row, hzrow, hz]
      rfl
  rw [GraphConvLayers.biasLogSoftmax_apply]
  show sh (ix2 p q) - _ = _
  rw [broadcastTo_a1_ab_apply]
  show sh (ix2 p q) - Ideal.log (shapeCast ⟨2, ![T, 1]⟩ _ hc (ix2 p (0 : Fin 1))) = _
  rw [RowReduce.shapeCast_a_a1_apply, RowReduce.multiReduction_add_row, hsh]
  unfold GraphConvLayers.rowLogSoftmax
  refine congrArg (fun t => (GraphConvLayers.biasedRow a (Gcn.rowVec br) p q
    - GraphConvLayers.rowMax (GraphConvLayers.biasedRow a (Gcn.rowVec br) p)) - Ideal.log t) ?_
  exact Finset.sum_congr rfl fun k _ => congrArg Ideal.exp (hsh k)

/-- The tile of `relu (a + b)` is `relu (a + b)` of the tile: if row `p` of a block is row `r` of the array at column `k`,
    and the two bias rows agree there, the two results agree at `(p, k)` and `(r, k)`. -/
theorem biasRelu_tile {M T n : ℕ} (A : FVec Ideal ⟨2, ![M, n]⟩ .f32) (B : FVec Ideal ⟨2, ![1, n]⟩ .f32)
    (x0 : FVec Ideal ⟨2, ![T, n]⟩ .f32) (x1 : FVec Ideal ⟨2, ![1, n]⟩ .f32) (p : Fin T) (r : Fin M) (k : Fin n)
    (h0 : x0 (ix2 p k) = A (ix2 r k)) (h1 : x1 (ix2 (0 : Fin 1) k) = B (ix2 (0 : Fin 1) k)) :
    GraphConvLayers.biasRelu x0 (Gcn.rowVec x1) (ix2 p k) = GraphConvLayers.biasRelu A (Gcn.rowVec B) (ix2 r k) := by
  rw [GraphConvLayers.biasRelu_apply, GraphConvLayers.biasRelu_apply, Gcn.rowVec_apply, Gcn.rowVec_apply, h0, h1]

/-- The tile of `log_softmax (a + b)` is `log_softmax (a + b)` of the tile: if row `p` of a block is row `r` of the
    array, and the two bias rows agree, the two results agree along the whole row. -/
theorem biasLogSoftmax_tile {M T n : ℕ} (A : FVec Ideal ⟨2, ![M, n]⟩ .f32) (B : FVec Ideal ⟨2, ![1, n]⟩ .f32)
    (x0 : FVec Ideal ⟨2, ![T, n]⟩ .f32) (x1 : FVec Ideal ⟨2, ![1, n]⟩ .f32) (p : Fin T) (r : Fin M)
    (h0 : ∀ k : Fin n, x0 (ix2 p k) = A (ix2 r k)) (h1 : ∀ k : Fin n, x1 (ix2 (0 : Fin 1) k) = B (ix2 (0 : Fin 1) k))
    (q : Fin n) :
    GraphConvLayers.biasLogSoftmax x0 (Gcn.rowVec x1) (ix2 p q) = GraphConvLayers.biasLogSoftmax A (Gcn.rowVec B) (ix2 r q) := by
  rw [GraphConvLayers.biasLogSoftmax_apply, GraphConvLayers.biasLogSoftmax_apply]
  have hrow : GraphConvLayers.biasedRow x0 (Gcn.rowVec x1) p = GraphConvLayers.biasedRow A (Gcn.rowVec B) r :=
    funext fun k => by
      show x0 (ix2 p k) + x1 (ix2 (0 : Fin 1) k) = A (ix2 r k) + B (ix2 (0 : Fin 1) k)
      rw [h0, h1]
  rw [hrow]

end TileRows

end
-- ==== Proof.ReadoutRegion.lean ====
/-
  What the last grid region leaves in its output array: the logarithm of the softmax of each row of x · w + b.

  The region cuts the rows of a 50000 x 128 array into five blocks of 10000 rows. At each grid point the body loads
  one block of rows, the whole 128 x 10 weight array and the one bias row, forms the block's product with the weights,
  adds the bias row to every row, and takes along each row the maximum, the shifted exponentials' sum and its
  logarithm. Entry (r, q) of the result reads row r of the left operand only, so the block that holds row r
  computes that row of the result whole; the five blocks tile the rows.
-/
import proofs.«167436_j15522011808341_1_alg».proof.Proof.Gen.KernelIdeal.Frame
import proofs.«167436_j15522011808341_1_alg».proof.Proof.LibMatProd
import proofs.«167436_j15522011808341_1_alg».proof.Proof.LibGraphConvLayers
import proofs.«167436_j15522011808341_1_alg».proof.Proof.LibTileRows
import proofs.«167436_j15522011808341_1_alg».proof.Proof.LibRowVec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The block of products the body forms before it adds the bias. -/
def logits (x0 : FVec Ideal S10000x128 .bf16) (x1 : FVec Ideal S128x10 .bf16) : FVec Ideal S10000x10 .f32 :=
  matmul dot_S10000x128_S128x10_S10000x10_1_0_0_1_n_n none (shapeCast S10000x128 x0 shapeCasts_S10000x128_S10000x128)
    (shapeCast S128x10 x1 shapeCasts_S128x10_S128x10) (constant S10000x10 .f32 0x00000000#32)

/-- That block at (p, q): row p of the loaded rows against column q of the weights. -/
theorem logits_apply (x0 : FVec Ideal S10000x128 .bf16) (x1 : FVec Ideal S128x10 .bf16) (p : Fin 10000) (q : Fin 10) :
    logits x0 x1 (ix2 p q) = ∑ k : Fin 128, x0 (ix2 p k) * x1 (ix2 k q) := by
  unfold logits
  rw [shapeCast_self, shapeCast_self]
  exact MatProd.matmul_zero_at _ rfl none x0 x1 _ p q rfl

/-- The stored block is the row-wise log-softmax of the products plus the bias row. -/
theorem entry (x0 : FVec Ideal S10000x128 .bf16) (x1 : FVec Ideal S128x10 .bf16) (x2 : FVec Ideal S1x10 .f32)
    (p : Fin 10000) (q : Fin 10) :
    k2_pay1 (F := Ideal) x0 x1 x2 (ix2 p q)
      = GraphConvLayers.biasLogSoftmax (logits x0 x1) (Gcn.rowVec x2) (ix2 p q) := by
  have h := TileRows.biasLogSoftmax_body (T := 10000) (n := 10) (logits x0 x1) x2 (rfl : S10000x10.ShapeCasts S10000x10)
    shapeCasts_S1x10_S1x10 broadcasts_S1x10_S10000x10 reduces_S10000x10_S10000 shapeCasts_S10000_S10000x1
    broadcasts_S10000x1_S10000x10 (.inl rfl) rfl rfl p q
  simp only [shapeCast_self (logits x0 x1)] at h
  exact h

/-- If row (y 0) of the loaded block is row (i 0) of an array A, the loaded weights and bias row are B and C, and the
    two indices name the same column, the stored block at y is the log-softmax of A · B + C at i. -/
theorem tile (A : FVec Ideal S50000x128 .bf16) (B : FVec Ideal S128x10 .bf16) (C : FVec Ideal S1x10 .f32)
    (x0 : FVec Ideal S10000x128 .bf16) (x1 : FVec Ideal S128x10 .bf16) (x2 : FVec Ideal S1x10 .f32)
    (y : S10000x10.Idx) (i : S50000x10.Idx)
    (hy0 : (y 0).val < 10000) (hi0 : (i 0).val < 50000) (hq : (i 1).val = (y 1).val)
    (h0 : ∀ k : Fin 128, x0 (ix2 (⟨(y 0).val, hy0⟩ : Fin 10000) k) = A (ix2 (⟨(i 0).val, hi0⟩ : Fin 50000) k))
    (h1 : x1 = B) (h2 : x2 = C) :
    k2_pay1 (F := Ideal) x0 x1 x2 y
      = GraphConvLayers.biasLogSoftmax (MatProd.matProd (M := 50000) (K := 128) (N := 10) A B) (Gcn.rowVec C) i := by
  subst h1 h2
  obtain ⟨p, q, rfl⟩ : ∃ (p : Fin 10000) (q : Fin 10), y = ix2 p q := ⟨y 0, y 1, eq_ix2 y⟩
  obtain ⟨r, s, rfl⟩ : ∃ (r : Fin 50000) (s : Fin 10), i = ix2 r s := ⟨i 0, i 1, eq_ix2 i⟩
  have hs : s = q := Fin.ext hq
  subst hs
  have h0' : ∀ k : Fin 128, x0 (ix2 p k) = A (ix2 r k) := h0
  rw [entry]
  refine TileRows.biasLogSoftmax_tile (MatProd.matProd (M := 50000) (K := 128) (N := 10) A x1) x2 (logits x0 x1) x2 p r
    (fun k => ?_) (fun k => rfl) s
  rw [logits_apply]
  show _ = ∑ j : Fin 128, A (ix2 r j) * x1 (ix2 j k)
  exact Finset.sum_congr rfl fun j _ => by rw [h0' j]

/-- The index maps over the grid: the row blocks of the left operand and of the output move together, the weights',
    the bias row's and every column block stay at 0, and there are five row blocks. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 4 :=
  (by decide +kernel : ∀ t : Fin grid2.N, _)

/-- Every one of the five row blocks is some grid point's. -/
theorem idx_onto : ∀ q0 : Fin 5, ∃ t : Fin cfg2.N, win2_3.index t = ![q0.val, 0] :=
  (by decide +kernel : ∀ q0 : Fin 5, ∃ t : Fin grid2.N, win2_3.index t = ![q0.val, 0])

/-- The result as one function of the three arrays the region is entered with. -/
abbrev result (c : Dev nD) : FVec Ideal S50000x10 .f32 :=
  GraphConvLayers.biasLogSoftmax
    (MatProd.matProd (M := 50000) (K := 128) (N := 10) (φ₁ := .bf16) (φ₂ := .bf16) (V c main_v95) (V c main_v96))
    (Gcn.rowVec (K := 10) (V c main_v97))

/-- What grid point t writes back is block t of that function. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero origin]
  simp only [View.ld_unit_zero (S := S10000x128) origin, View.ld_unit_zero (S := S128x10) origin, View.ld_unit_zero (S := S1x10) origin]
  obtain ⟨e0, e1, e2, e3, e4, e5, e6, e7⟩ := idx_facts t
  funext j
  have hj0 : (j 0).val < 10000 := (j 0).isLt
  have hj1 : (j 1).val < 10 := (j 1).isLt
  show k2_pay1 (F := Ideal) (iblk2 V c 0 t) (iblk2 V c 1 t) (iblk2 V c 2 t) j = result V c (((cfg2.win 3).blk t).view.emb j)
  refine tile (V c main_v95) (V c main_v96) (V c main_v97) (iblk2 V c 0 t) (iblk2 V c 1 t) (iblk2 V c 2 t) j
    (((cfg2.win 3).blk t).view.emb j) hj0 ((((cfg2.win 3).blk t).view.emb j) 0).isLt ?_ ?_ ?_ ?_
  · show win2_3.index t (1 : Fin 2) * 10 + 1 * (j 1).val = (j 1).val
    omega
  · intro k
    show V c main_v95 (((cfg2.win 0).blk t).view.emb (ix2 (⟨(j 0).val, hj0⟩ : Fin 10000) k)) = V c main_v95 _
    refine congrArg (V c main_v95) ?_
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  · funext y
    show V c main_v96 (((cfg2.win 1).blk t).view.emb y) = V c main_v96 y
    refine congrArg (V c main_v96) ?_
    funext a; apply Fin.ext
    match a with
    | ⟨0, _⟩ => show win2_1.index t (0 : Fin 2) * 128 + 1 * (y 0).val = (y 0).val; omega
    | ⟨1, _⟩ => show win2_1.index t (1 : Fin 2) * 10 + 1 * (y 1).val = (y 1).val; omega
  · funext y
    show V c main_v97 (((cfg2.win 2).blk t).view.emb y) = V c main_v97 y
    refine congrArg (V c main_v97) ?_
    funext a; apply Fin.ext
    match a with
    | ⟨0, _⟩ => show win2_2.index t (0 : Fin 2) * 1 + 1 * (y 0).val = (y 0).val; omega
    | ⟨1, _⟩ => show win2_2.index t (1 : Fin 2) * 10 + 1 * (y 1).val = (y 1).val; omega

/-- An index of the output array lies in point t's block iff each coordinate lies in the block's range. -/
theorem mem_blk (t : Fin cfg2.N) (i : S50000x10.Idx) :
    i ∈ ((cfg2.win 3).blk t).view.set ↔ ∀ a : Fin 2, win2_3.index t a * S10000x10.size a ≤ (i a).val ∧ (i a).val < win2_3.index t a * S10000x10.size a + S10000x10.size a := by
  show i ∈ ((View.whole main_v98).slice (win2_3.rect t)).set ↔ _
  rw [View.set_slice_whole, Rect.mem_set_unit]
  exact Iff.rfl

/-- Row r lies in the block of rows number r / 10000: the blocks cover the array. -/
theorem cover (i : S50000x10.Idx) : ∃ t : Fin cfg2.N, (cfg2.win 3).flush t = true ∧ i ∈ ((cfg2.win 3).blk t).view.set := by
  have hi0 : (i 0).val < 50000 := (i 0).isLt
  have hi1 : (i 1).val < 10 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 10 ≤ (i 1).val ∧ (i 1).val < win2_3.index t (1 : Fin 2) * 10 + 10; omega

/-- The output array after the region is the log-softmax of the product plus the bias row, of the three arrays as the
    region found them. -/
theorem array_eq (c : Dev nD) : (dat2 V c).arrAt 3 cfg2.N = result V c :=
  (dat2 V c).arrAt_eq_of_cover 3 _ (fun t _ => flushed_eq V c t) (fun i => cover i)

end Cert.KernelIdeal.Region2

end
-- ==== Proof.GraphLayer.lean ====
/-
  One graph-convolution layer after its feature transform, as a function of whole arrays.

  The edge list arrives as the column of sources `s` and the column of targets `d`, each the 800000 given edges
  followed by the 50000 self-loops. With
      deg   = the number of edges into each node (ones summed into their targets),
      dinv  = rsqrt deg where deg > 0, and 0 elsewhere,
      norm  = dinv[s] * dinv[d]                       (one factor per edge),
  the layer sends the transformed features `P` and the bias `b` to
      max (scatter_add (P[s] * norm) into d  +  b , 0).
  Node numbers are read as jnp reads them (a negative number counts from the end). Both programs spell this map with
  the same operations, so it is stated once, here, and compared as a whole: nothing below opens a gather or a
  scatter.
-/
import proofs.«167436_j15522011808341_1_alg».proof.Proof.Gen.ReferenceIdeal
import Idealize.ShloMosaic.PureOps.Ideal

noncomputable section

namespace Cert.ReferenceIdeal.GraphLayer

open Cert.ReferenceIdeal Cert.ReferenceIdeal.Gen Idealize.ShloMosaic

/-- A column of node numbers as the `[E, 1]` index array a scatter takes. -/
def col (v : IVec S850000 32) : IVec S850000x1 32 :=
  broadcastInDim S850000x1 ![0] bcast_S850000_S850000x1_0 v

/-- The same with negative node numbers wrapped by the number of nodes: the index array a gather takes. -/
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The in-degree of every node: a one for each edge, summed into the edge's target. -/
def degree (d : IVec S850000 32) : FVec Ideal S50000 .f32 :=
  Host.scatterAdd scatter_S50000_S850000x1_S850000_n_0_0_1
    (broadcastInDim S50000 ![] bcast_S_S50000 (constant (F := Ideal) S_ .f32 0x00000000#32)) (col d)
    (broadcastInDim S850000 ![] bcast_S_S850000 (constant (F := Ideal) S_ .f32 0x3F800000#32))

/-- `rsqrt deg` where the degree is positive, zero elsewhere. -/
def invSqrtDeg (d : IVec S850000 32) : FVec Ideal S50000 .f32 :=
  select (cmpf .ogt (degree d) (broadcastInDim S50000 ![] bcast_S_S50000 (constant (F := Ideal) S_ .f32 0x00000000#32)))
    (Host.rsqrt (degree d))
    (broadcastInDim S50000 ![] bcast_S_S50000 (constant (F := Ideal) S_ .f32 0x00000000#32))

/-- The factor of each edge: the product of the two ends' `invSqrtDeg`. -/
def edgeNorm (s d : IVec S850000 32) : FVec Ideal S850000 .f32 :=
  mulf (Host.gather gather_S50000_S850000x1_S850000_n_0_n_n_0_1_1 (invSqrtDeg d) (wrapCol s))
    (Host.gather gather_S50000_S850000x1_S850000_n_0_n_n_0_1_1 (invSqrtDeg d) (wrapCol d))

/-- The layer: the normalised neighbourhood sum of `P`, plus the bias along each row, then the maximum with zero. -/
def layer (s d : IVec S850000 32) (P : FVec Ideal S50000x128 .f32)
    (b : FVec Ideal S128 .f32) : FVec Ideal S50000x128 .f32 :=
  maximumf
    (addf
      (Host.scatterAdd scatter_S50000x128_S850000x1_S850000x128_1_0_0_1
        (broadcastInDim S50000x128 ![] bcast_S_S50000x128 (constant (F := Ideal) S_ .f32 0x00000000#32)) (col d)
        (mulf (Host.gather gather_S50000x128_S850000x1_S850000x128_1_0_n_n_0_1_1128 P (wrapCol s))
          (broadcastInDim S850000x128 ![0, 1] bcast_S850000x1_S850000x128_0_1
            (broadcastInDim S850000x1 ![0] bcast_S850000_S850000x1_0 (edgeNorm s d)))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The layer of equal arguments. -/
theorem layer_congr {s s' d d' : IVec S850000 32} {P P' : FVec Ideal S50000x128 .f32} {b b' : FVec Ideal S128 .f32}
    (hs : s = s') (hd : d = d') (hP : P = P') (hb : b = b') : layer s d P b = layer s' d' P' b' := by
  subst hs hd hP hb
  rfl

/-- The column of sources (`which = 0`) or of targets (`which = 1`) of the edge list `e`, followed by the self-loops. -/
def endsOf (which : Fin 2 → Nat) (hs : S2x800000.Slices which S1x800000) (e : IVec S2x800000 32) :
    IVec S850000 32 :=
  concatenate S850000 0 [⟨S800000, shapeCast S800000 (extractStridedSlice S1x800000 which e hs) shapeCasts_S1x800000_S800000⟩,
    ⟨S50000, iotaInDim S50000 32 0⟩] concatenates_S800000_S50000_S850000_d0

/-- The sources of the edge list with the self-loops. -/
def sources (e : IVec S2x800000 32) : IVec S850000 32 :=
  endsOf ![0, 0] slices_S2x800000_S1x800000_0_0 e

/-- The targets of the edge list with the self-loops. -/
def targets (e : IVec S2x800000 32) : IVec S850000 32 :=
  endsOf ![1, 0] slices_S2x800000_S1x800000_1_0 e

end Cert.ReferenceIdeal.GraphLayer

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.LibTypedTransport.lean ====
/-
  A typed reference's transport of contents, there and back.

  A function called from a program names its arrays by typed references: a buffer together with the equation "this
  buffer's type is the value's type". Contents are moved into the buffer's own type along that equation when an operation
  writes them, and back along the same equation when a later operation reads them. The two moves cancel, whatever the
  equation's proof: so, reading a line of such operations, every value handed from one operation to the next arrives
  unchanged, and only the first reads and the last write keep a transport. (With this rule added to the one-pass reading
  of a line of operations, what is left to compare is the operations' own term.)
-/
import Idealize.ShloMosaic.Lib.StableHlo.Run

noncomputable section

namespace Idealize.ShloMosaic.StableHlo.TRef

variable {sig : RefSig} {Val : EltTy → Type} {T : BufTy}

/-- Contents moved to a buffer's own type and back along the same equation are themselves. -/
theorem ofBuf_toBuf (x : TRef sig T) (v : T.Contents Val) : x.ofBuf (x.toBuf v) = v := by
  unfold ofBuf toBuf
  simp

/-- Contents of the buffer's own type moved to the value's type and back are themselves. -/
theorem toBuf_ofBuf (x : TRef sig T) (v : x.ref.ty.Contents Val) : x.toBuf (x.ofBuf v) = v := by
  unfold ofBuf toBuf
  simp

end Idealize.ShloMosaic.StableHlo.TRef

end
-- ==== Proof.HostGlue.lean ====
/-
  The host operations between the regions, read back.

  Before the first region the edge list is cut into its column of sources and its column of targets, each followed by
  the self-loops, and the features and the first weights are narrowed to bf16. Between two regions the host applies one
  graph-convolution layer to the array the region before wrote — the in-degrees, their inverse square roots, the
  factor of each edge, the rows gathered at the sources, scaled and summed into their targets, the bias, the maximum with
  zero — and narrows the result and the next weights to bf16; before the last region it also reshapes the last bias to
  one row. Each stretch is read from the buffer contents it starts at, whatever they are; the regions in between
  change their own arrays only.
-/
import proofs.«167436_j15522011808341_1_alg».proof.Proof.Gen.KernelIdeal.Frame
import proofs.«167436_j15522011808341_1_alg».proof.Proof.GraphLayer
import proofs.«167436_j15522011808341_1_alg».proof.Proof.LibJoinedPair
import proofs.«167436_j15522011808341_1_alg».proof.Proof.LibTypedTransport

set_option maxRecDepth 16384

noncomputable section

namespace Cert.KernelIdeal.HostGlue

open Cert.KernelIdeal Cert.KernelIdeal.Gen
open Idealize.ShloMosaic Idealize.ShloMosaic.TcCoe Idealize.SL.Sem

/-- The contents the first stretch leaves, from contents `W`. -/
abbrev after0 (W : Valuation τ sig (Elt Ideal)) : Valuation τ sig (Elt Ideal) := StableHlo.after hostOps0 W

/-- The contents the stretches between the first two regions leave, from contents `W`. -/
abbrev after1 (W : Valuation τ sig (Elt Ideal)) : Valuation τ sig (Elt Ideal) :=
  StableHlo.after hostOps1_4 (StableHlo.after hostOps1_3 (StableHlo.after hostOps1_2 (StableHlo.after hostOps1_1 (StableHlo.after hostOps1 W))))

/-- The contents the stretches between the last two regions leave, from contents `W`. -/
abbrev after2 (W : Valuation τ sig (Elt Ideal)) : Valuation τ sig (Elt Ideal) :=
  StableHlo.after hostOps2_4 (StableHlo.after hostOps2_3 (StableHlo.after hostOps2_2 (StableHlo.after hostOps2_1 (StableHlo.after hostOps2 W))))

/-! ## The typed references' transports at the buffers a called function shares with @main

At a literal buffer of the stated type the transport of contents is the identity. -/

theorem ofBuf_v15 (h1 h2 h3) (v : IVec S50000 1) :
    ((StableHlo.TRef.of (T := ⟨S50000, .i1⟩) main_v15 h1 h2 h3).ofBuf (Val := Elt Ideal) v : IVec S50000 1) = v := rfl
theorem ofBuf_v16 (h1 h2 h3) (v : FVec Ideal S50000 .f32) :
    ((StableHlo.TRef.of (T := ⟨S50000, .f32⟩) main_v16 h1 h2 h3).ofBuf (Val := Elt Ideal) v : FVec Ideal S50000 .f32) = v := rfl
theorem ofBuf_v17 (h1 h2 h3) (v : FVec Ideal S50000 .f32) :
    ((StableHlo.TRef.of (T := ⟨S50000, .f32⟩) main_v17 h1 h2 h3).ofBuf (Val := Elt Ideal) v : FVec Ideal S50000 .f32) = v := rfl
theorem toBuf_v18 (h1 h2 h3) (v : FVec Ideal S50000 .f32) :
    ((StableHlo.TRef.of (T := ⟨S50000, .f32⟩) main_v18 h1 h2 h3).toBuf (Val := Elt Ideal) v : FVec Ideal S50000 .f32) = v := rfl
theorem ofBuf_v49 (h1 h2 h3) (v : FVec Ideal S50000x128 .f32) :
    ((StableHlo.TRef.of (T := ⟨S50000x128, .f32⟩) main_v49 h1 h2 h3).ofBuf (Val := Elt Ideal) v : FVec Ideal S50000x128 .f32) = v := rfl
theorem toBuf_v50 (h1 h2 h3) (v : FVec Ideal S50000x128 .f32) :
    ((StableHlo.TRef.of (T := ⟨S50000x128, .f32⟩) main_v50 h1 h2 h3).toBuf (Val := Elt Ideal) v : FVec Ideal S50000x128 .f32) = v := rfl
theorem ofBuf_v59 (h1 h2 h3) (v : IVec S50000 1) :
    ((StableHlo.TRef.of (T := ⟨S50000, .i1⟩) main_v59 h1 h2 h3).ofBuf (Val := Elt Ideal) v : IVec S50000 1) = v := rfl
theorem ofBuf_v60 (h1 h2 h3) (v : FVec Ideal S50000 .f32) :
    ((StableHlo.TRef.of (T := ⟨S50000, .f32⟩) main_v60 h1 h2 h3).ofBuf (Val := Elt Ideal) v : FVec Ideal S50000 .f32) = v := rfl
theorem ofBuf_v61 (h1 h2 h3) (v : FVec Ideal S50000 .f32) :
    ((StableHlo.TRef.of (T := ⟨S50000, .f32⟩) main_v61 h1 h2 h3).ofBuf (Val := Elt Ideal) v : FVec Ideal S50000 .f32) = v := rfl
theorem toBuf_v62 (h1 h2 h3) (v : FVec Ideal S50000 .f32) :
    ((StableHlo.TRef.of (T := ⟨S50000, .f32⟩) main_v62 h1 h2 h3).toBuf (Val := Elt Ideal) v : FVec Ideal S50000 .f32) = v := rfl
theorem ofBuf_v93 (h1 h2 h3) (v : FVec Ideal S50000x128 .f32) :
    ((StableHlo.TRef.of (T := ⟨S50000x128, .f32⟩) main_v93 h1 h2 h3).ofBuf (Val := Elt Ideal) v : FVec Ideal S50000x128 .f32) = v := rfl
theorem toBuf_v94 (h1 h2 h3) (v : FVec Ideal S50000x128 .f32) :
    ((StableHlo.TRef.of (T := ⟨S50000x128, .f32⟩) main_v94 h1 h2 h3).toBuf (Val := Elt Ideal) v : FVec Ideal S50000x128 .f32) = v := rfl

variable (W : Valuation τ sig (Elt Ideal))

/-! ## Before the first region -/

theorem sources0 : after0 W (Proc.devRef .tc main_v3) = Cert.ReferenceIdeal.GraphLayer.sources (W (Proc.devRef .tc main_arg1)) := by
  show StableHlo.after hostOps0 W (Proc.devRef .tc main_v3) = _
  read_fold
  rfl

theorem targets0 : after0 W (Proc.devRef .tc main_v6) = Cert.ReferenceIdeal.GraphLayer.targets (W (Proc.devRef .tc main_arg1)) := by
  show StableHlo.after hostOps0 W (Proc.devRef .tc main_v6) = _
  read_fold
  rfl

theorem lhs0 : after0 W (Proc.devRef .tc main_v7)
    = (truncf .bf16 (W (Proc.devRef .tc main_arg0) : FVec Ideal S50000x128 .f32) bitsLt_bf16_f32 : FVec Ideal S50000x128 .bf16) := by
  show StableHlo.after hostOps0 W (Proc.devRef .tc main_v7) = _
  read_fold

theorem rhs0 : after0 W (Proc.devRef .tc main_v8)
    = (truncf .bf16 (W (Proc.devRef .tc main_arg2) : FVec Ideal S128x128 .f32) bitsLt_bf16_f32 : FVec Ideal S128x128 .bf16) := by
  show StableHlo.after hostOps0 W (Proc.devRef .tc main_v8) = _
  read_fold

/-- The first stretch writes no argument. -/
theorem kept0 (b : Ref sig .tc) (hb : b = main_arg1 ∨ b = main_arg3 ∨ b = main_arg4 ∨ b = main_arg5 ∨ b = main_arg6 ∨ b = main_arg7) :
    after0 W (Proc.devRef .tc b) = W (Proc.devRef .tc b) := by
  rcases hb with rfl | rfl | rfl | rfl | rfl | rfl <;>
    (show StableHlo.after hostOps0 W _ = _; read_fold)

/-! ## Between the first two regions -/

theorem lhs1 : (after1 W (Proc.devRef .tc main_v51) : FVec Ideal S50000x128 .bf16)
    = truncf .bf16 (Cert.ReferenceIdeal.GraphLayer.layer (W (Proc.devRef .tc main_v3)) (W (Proc.devRef .tc main_v6))
        (W (Proc.devRef .tc main_v9)) (W (Proc.devRef .tc main_arg3))) bitsLt_bf16_f32 := by
  show StableHlo.after hostOps1_4 (StableHlo.after hostOps1_3 (StableHlo.after hostOps1_2 (StableHlo.after hostOps1_1 (StableHlo.after hostOps1 W)))) (Proc.devRef .tc main_v51) = _
  read_fold_casts [StableHlo.TRef.ofBuf_toBuf, StableHlo.TRef.toBuf_ofBuf, ofBuf_v15, ofBuf_v16, ofBuf_v17, toBuf_v18, ofBuf_v49, toBuf_v50, ofBuf_v59, ofBuf_v60, ofBuf_v61, toBuf_v62, ofBuf_v93, toBuf_v94]
  rfl

theorem rhs1 : after1 W (Proc.devRef .tc main_v52)
    = (truncf .bf16 (W (Proc.devRef .tc main_arg4) : FVec Ideal S128x128 .f32) bitsLt_bf16_f32 : FVec Ideal S128x128 .bf16) := by
  show StableHlo.after hostOps1_4 (StableHlo.after hostOps1_3 (StableHlo.after hostOps1_2 (StableHlo.after hostOps1_1 (StableHlo.after hostOps1 W)))) (Proc.devRef .tc main_v52) = _
  read_fold

/-- These stretches write neither the edge columns nor a later argument. -/
theorem kept1 (b : Ref sig .tc) (hb : b = main_v3 ∨ b = main_v6 ∨ b = main_arg5 ∨ b = main_arg6 ∨ b = main_arg7) :
    after1 W (Proc.devRef .tc b) = W (Proc.devRef .tc b) := by
  rcases hb with rfl | rfl | rfl | rfl | rfl <;>
    (show StableHlo.after hostOps1_4 (StableHlo.after hostOps1_3 (StableHlo.after hostOps1_2 (StableHlo.after hostOps1_1 (StableHlo.after hostOps1 W)))) _ = _; read_fold)

/-! ## Between the last two regions -/

theorem lhs2 : (after2 W (Proc.devRef .tc main_v95) : FVec Ideal S50000x128 .bf16)
    = truncf .bf16 (Cert.ReferenceIdeal.GraphLayer.layer (W (Proc.devRef .tc main_v3)) (W (Proc.devRef .tc main_v6))
        (W (Proc.devRef .tc main_v53)) (W (Proc.devRef .tc main_arg5))) bitsLt_bf16_f32 := by
  show StableHlo.after hostOps2_4 (StableHlo.after hostOps2_3 (StableHlo.after hostOps2_2 (StableHlo.after hostOps2_1 (StableHlo.after hostOps2 W)))) (Proc.devRef .tc main_v95) = _
  read_fold_casts [StableHlo.TRef.ofBuf_toBuf, StableHlo.TRef.toBuf_ofBuf, ofBuf_v15, ofBuf_v16, ofBuf_v17, toBuf_v18, ofBuf_v49, toBuf_v50, ofBuf_v59, ofBuf_v60, ofBuf_v61, toBuf_v62, ofBuf_v93, toBuf_v94]
  rfl

theorem rhs2 : after2 W (Proc.devRef .tc main_v96)
    = (truncf .bf16 (W (Proc.devRef .tc main_arg6) : FVec Ideal S128x10 .f32) bitsLt_bf16_f32 : FVec Ideal S128x10 .bf16) := by
  show StableHlo.after hostOps2_4 (StableHlo.after hostOps2_3 (StableHlo.after hostOps2_2 (StableHlo.after hostOps2_1 (StableHlo.after hostOps2 W)))) (Proc.devRef .tc main_v96) = _
  read_fold

theorem bias2 : (after2 W (Proc.devRef .tc main_v97) : FVec Ideal S1x10 .f32)
    = shapeCast S1x10 (W (Proc.devRef .tc main_arg7) : FVec Ideal S10 .f32) shapeCasts_S10_S1x10 := by
  show StableHlo.after hostOps2_4 (StableHlo.after hostOps2_3 (StableHlo.after hostOps2_2 (StableHlo.after hostOps2_1 (StableHlo.after hostOps2 W)))) (Proc.devRef .tc main_v97) = _
  read_fold
  rfl

end Cert.KernelIdeal.HostGlue

end
-- ==== Proof.Spec.lean ====
/-
  The function both programs compute, stated once.

  With `·` the matrix product, `L` one graph-convolution layer over the edge list `e` with its self-loops, and the last
  map the logarithm of the softmax along each row:

      result = log_softmax ( L (L (x · W1) b1 · W2) b2 · Wc + bc ).
-/
import proofs.«167436_j15522011808341_1_alg».proof.Proof.GraphLayer
import proofs.«167436_j15522011808341_1_alg».proof.Proof.LibMatProd
import proofs.«167436_j15522011808341_1_alg».proof.Proof.LibGraphConvLayers

noncomputable section

namespace Cert.ReferenceIdeal.Spec

open Cert.ReferenceIdeal Idealize.ShloMosaic

/-- One layer over the edge list `e`. -/
abbrev conv (e : IVec S2x800000 32) (P : FVec Ideal S50000x128 .f32) (b : FVec Ideal S128 .f32) : FVec Ideal S50000x128 .f32 :=
  GraphLayer.layer (GraphLayer.sources e) (GraphLayer.targets e) P b

/-- The two-layer network with its read-out. -/
def result (x : FVec Ideal S50000x128 .f32) (e : IVec S2x800000 32) (w1 : FVec Ideal S128x128 .f32) (b1 : FVec Ideal S128 .f32)
    (w2 : FVec Ideal S128x128 .f32) (b2 : FVec Ideal S128 .f32) (wc : FVec Ideal S128x10 .f32) (bc : FVec Ideal S10 .f32) :
    FVec Ideal S50000x10 .f32 :=
  GraphConvLayers.biasLogSoftmax (M := 50000) (N := 10)
    (MatProd.matProd (M := 50000) (K := 128) (N := 10)
      (conv e (MatProd.matProd (M := 50000) (K := 128) (N := 128)
        (conv e (MatProd.matProd (M := 50000) (K := 128) (N := 128) x w1) b1) w2) b2) wc) bc

end Cert.ReferenceIdeal.Spec

end
-- ==== Proof.KernelValue.lean ====
/-
  The kernel program's result as a function of its arguments.

  The result's buffer ends at what the last region writes: the log-softmax read-out of the array the host prepared for
  it. Walking back through the boundaries — a region's output is the matrix product of its two input arrays as it found
  them; the host between two regions applies one graph-convolution layer and narrows to bf16, which at the ideal values
  changes nothing; no region and no later stretch touches the edge columns or an argument — gives the two-layer
  network of the arguments as launched.
-/
import proofs.«167436_j15522011808341_1_alg».proof.Proof.KernelRun
import proofs.«167436_j15522011808341_1_alg».proof.Proof.ProjRegion0
import proofs.«167436_j15522011808341_1_alg».proof.Proof.ProjRegion1
import proofs.«167436_j15522011808341_1_alg».proof.Proof.ReadoutRegion
import proofs.«167436_j15522011808341_1_alg».proof.Proof.HostGlue
import proofs.«167436_j15522011808341_1_alg».proof.Proof.Spec
import proofs.«167436_j15522011808341_1_alg».proof.Proof.LibRowVec

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The boundary contents before the first region, read at the edge columns and the arguments. -/
theorem W1_sources (c : Dev nD) : W1 m ρ c (Proc.devRef .tc main_v3)
    = Cert.ReferenceIdeal.GraphLayer.sources (m ((c.tc : Thread nD τ).loc main_arg1)) := HostGlue.sources0 (W0 m ρ c)
theorem W1_targets (c : Dev nD) : W1 m ρ c (Proc.devRef .tc main_v6)
    = Cert.ReferenceIdeal.GraphLayer.targets (m ((c.tc : Thread nD τ).loc main_arg1)) := HostGlue.targets0 (W0 m ρ c)

/-- The first region's output: x · W1. -/
theorem W2_proj (c : Dev nD) : W2 m ρ c (Proc.devRef .tc main_v9)
    = MatProd.matProd (M := 50000) (K := 128) (N := 128) (φ₁ := .f32) (φ₂ := .f32) (m ((c.tc : Thread nD τ).loc main_arg0)) (m ((c.tc : Thread nD τ).loc main_arg2)) := by
  refine (W2_arr m ρ c 2).trans ((Region0.array_eq (V1 m ρ) c).trans ?_)
  exact (congrArg₂ (fun (a : FVec Ideal S50000x128 .bf16) (b : FVec Ideal S128x128 .bf16) => MatProd.matProd (M := 50000) (K := 128) (N := 128) (φ₁ := .bf16) (φ₂ := .bf16) a b)
    (HostGlue.lhs0 (W0 m ρ c)) (HostGlue.rhs0 (W0 m ρ c))).trans (MatProd.matProd_truncf _ _ bitsLt_bf16_f32 bitsLt_bf16_f32)

/-- What the first region leaves outside its arrays is what it found. -/
theorem W2_sources (c : Dev nD) : W2 m ρ c (Proc.devRef .tc main_v3)
    = Cert.ReferenceIdeal.GraphLayer.sources (m ((c.tc : Thread nD τ).loc main_arg1)) :=
  (W2_of_ne m ρ c main_v3 (by decide)).trans (W1_sources m ρ c)
theorem W2_targets (c : Dev nD) : W2 m ρ c (Proc.devRef .tc main_v6)
    = Cert.ReferenceIdeal.GraphLayer.targets (m ((c.tc : Thread nD τ).loc main_arg1)) :=
  (W2_of_ne m ρ c main_v6 (by decide)).trans (W1_targets m ρ c)
theorem W2_arg3 (c : Dev nD) : W2 m ρ c (Proc.devRef .tc main_arg3) = m ((c.tc : Thread nD τ).loc main_arg3) :=
  (W2_of_ne m ρ c main_arg3 (by decide)).trans ((HostGlue.kept0 (W0 m ρ c) main_arg3 (.inr (.inl rfl))).trans rfl)
theorem W2_arg4 (c : Dev nD) : W2 m ρ c (Proc.devRef .tc main_arg4) = m ((c.tc : Thread nD τ).loc main_arg4) :=
  (W2_of_ne m ρ c main_arg4 (by decide)).trans ((HostGlue.kept0 (W0 m ρ c) main_arg4 (.inr (.inr (.inl rfl)))).trans rfl)
theorem W2_arg5 (c : Dev nD) : W2 m ρ c (Proc.devRef .tc main_arg5) = m ((c.tc : Thread nD τ).loc main_arg5) :=
  (W2_of_ne m ρ c main_arg5 (by decide)).trans ((HostGlue.kept0 (W0 m ρ c) main_arg5 (.inr (.inr (.inr (.inl rfl))))).trans rfl)
theorem W2_arg6 (c : Dev nD) : W2 m ρ c (Proc.devRef .tc main_arg6) = m ((c.tc : Thread nD τ).loc main_arg6) :=
  (W2_of_ne m ρ c main_arg6 (by decide)).trans ((HostGlue.kept0 (W0 m ρ c) main_arg6 (.inr (.inr (.inr (.inr (.inl rfl)))))).trans rfl)
theorem W2_arg7 (c : Dev nD) : W2 m ρ c (Proc.devRef .tc main_arg7) = m ((c.tc : Thread nD τ).loc main_arg7) :=
  (W2_of_ne m ρ c main_arg7 (by decide)).trans ((HostGlue.kept0 (W0 m ρ c) main_arg7 (.inr (.inr (.inr (.inr (.inr rfl)))))).trans rfl)

/-- The first layer, as the second region finds it. -/
theorem entry1_lhs (c : Dev nD) : HostGlue.after1 (W2 m ρ c) (Proc.devRef .tc main_v51)
    = (truncf .bf16 (Cert.ReferenceIdeal.Spec.conv (m ((c.tc : Thread nD τ).loc main_arg1)) (MatProd.matProd (M := 50000) (K := 128) (N := 128) (φ₁ := .f32) (φ₂ := .f32) (m ((c.tc : Thread nD τ).loc main_arg0)) (m ((c.tc : Thread nD τ).loc main_arg2))) (m ((c.tc : Thread nD τ).loc main_arg3))) bitsLt_bf16_f32
        : FVec Ideal S50000x128 .bf16) :=
  (HostGlue.lhs1 (W2 m ρ c)).trans (congrArg (fun z : FVec Ideal S50000x128 .f32 => truncf .bf16 z bitsLt_bf16_f32)
    (Cert.ReferenceIdeal.GraphLayer.layer_congr (W2_sources m ρ c) (W2_targets m ρ c) (W2_proj m ρ c) (W2_arg3 m ρ c)))

theorem entry1_rhs (c : Dev nD) : HostGlue.after1 (W2 m ρ c) (Proc.devRef .tc main_v52)
    = (truncf .bf16 ((m ((c.tc : Thread nD τ).loc main_arg4)) : FVec Ideal S128x128 .f32) bitsLt_bf16_f32 : FVec Ideal S128x128 .bf16) :=
  (HostGlue.rhs1 (W2 m ρ c)).trans (congrArg (fun z : FVec Ideal S128x128 .f32 => truncf .bf16 z bitsLt_bf16_f32) (W2_arg4 m ρ c))

/-- The second region's output: L (x · W1) b1 · W2. -/
theorem W8_proj (c : Dev nD) : W8 m ρ c (Proc.devRef .tc main_v53)
    = MatProd.matProd (M := 50000) (K := 128) (N := 128) (φ₁ := .f32) (φ₂ := .f32)
        (Cert.ReferenceIdeal.Spec.conv (m ((c.tc : Thread nD τ).loc main_arg1)) (MatProd.matProd (M := 50000) (K := 128) (N := 128) (φ₁ := .f32) (φ₂ := .f32) (m ((c.tc : Thread nD τ).loc main_arg0)) (m ((c.tc : Thread nD τ).loc main_arg2))) (m ((c.tc : Thread nD τ).loc main_arg3)))
        (m ((c.tc : Thread nD τ).loc main_arg4)) := by
  refine (W8_arr m ρ c 2).trans ((Region1.array_eq (V7 m ρ) c).trans ?_)
  exact (congrArg₂ (fun (a : FVec Ideal S50000x128 .bf16) (b : FVec Ideal S128x128 .bf16) => MatProd.matProd (M := 50000) (K := 128) (N := 128) (φ₁ := .bf16) (φ₂ := .bf16) a b)
    (entry1_lhs m ρ c) (entry1_rhs m ρ c)).trans (MatProd.matProd_truncf _ _ bitsLt_bf16_f32 bitsLt_bf16_f32)

/-- What the stretches after the first region and the second region leave at the edge columns and the later arguments. -/
theorem W8_sources (c : Dev nD) : W8 m ρ c (Proc.devRef .tc main_v3)
    = Cert.ReferenceIdeal.GraphLayer.sources (m ((c.tc : Thread nD τ).loc main_arg1)) :=
  (W8_of_ne m ρ c main_v3 (by decide)).trans ((HostGlue.kept1 (W2 m ρ c) main_v3 (.inl rfl)).trans (W2_sources m ρ c))
theorem W8_targets (c : Dev nD) : W8 m ρ c (Proc.devRef .tc main_v6)
    = Cert.ReferenceIdeal.GraphLayer.targets (m ((c.tc : Thread nD τ).loc main_arg1)) :=
  (W8_of_ne m ρ c main_v6 (by decide)).trans ((HostGlue.kept1 (W2 m ρ c) main_v6 (.inr (.inl rfl))).trans (W2_targets m ρ c))
theorem W8_arg5 (c : Dev nD) : W8 m ρ c (Proc.devRef .tc main_arg5) = m ((c.tc : Thread nD τ).loc main_arg5) :=
  (W8_of_ne m ρ c main_arg5 (by decide)).trans ((HostGlue.kept1 (W2 m ρ c) main_arg5 (.inr (.inr (.inl rfl)))).trans (W2_arg5 m ρ c))
theorem W8_arg6 (c : Dev nD) : W8 m ρ c (Proc.devRef .tc main_arg6) = m ((c.tc : Thread nD τ).loc main_arg6) :=
  (W8_of_ne m ρ c main_arg6 (by decide)).trans ((HostGlue.kept1 (W2 m ρ c) main_arg6 (.inr (.inr (.inr (.inl rfl))))).trans (W2_arg6 m ρ c))
theorem W8_arg7 (c : Dev nD) : W8 m ρ c (Proc.devRef .tc main_arg7) = m ((c.tc : Thread nD τ).loc main_arg7) :=
  (W8_of_ne m ρ c main_arg7 (by decide)).trans ((HostGlue.kept1 (W2 m ρ c) main_arg7 (.inr (.inr (.inr (.inr rfl))))).trans (W2_arg7 m ρ c))

/-- The second layer, the last weights and the bias row, as the last region finds them. -/
theorem entry2_lhs (c : Dev nD) : HostGlue.after2 (W8 m ρ c) (Proc.devRef .tc main_v95)
    = (truncf .bf16 (Cert.ReferenceIdeal.Spec.conv (m ((c.tc : Thread nD τ).loc main_arg1))
        (MatProd.matProd (M := 50000) (K := 128) (N := 128) (φ₁ := .f32) (φ₂ := .f32) (Cert.ReferenceIdeal.Spec.conv (m ((c.tc : Thread nD τ).loc main_arg1)) (MatProd.matProd (M := 50000) (K := 128) (N := 128) (φ₁ := .f32) (φ₂ := .f32) (m ((c.tc : Thread nD τ).loc main_arg0)) (m ((c.tc : Thread nD τ).loc main_arg2))) (m ((c.tc : Thread nD τ).loc main_arg3))) (m ((c.tc : Thread nD τ).loc main_arg4)))
        (m ((c.tc : Thread nD τ).loc main_arg5))) bitsLt_bf16_f32 : FVec Ideal S50000x128 .bf16) :=
  (HostGlue.lhs2 (W8 m ρ c)).trans (congrArg (fun z : FVec Ideal S50000x128 .f32 => truncf .bf16 z bitsLt_bf16_f32)
    (Cert.ReferenceIdeal.GraphLayer.layer_congr (W8_sources m ρ c) (W8_targets m ρ c) (W8_proj m ρ c) (W8_arg5 m ρ c)))

theorem entry2_rhs (c : Dev nD) : HostGlue.after2 (W8 m ρ c) (Proc.devRef .tc main_v96)
    = (truncf .bf16 ((m ((c.tc : Thread nD τ).loc main_arg6)) : FVec Ideal S128x10 .f32) bitsLt_bf16_f32 : FVec Ideal S128x10 .bf16) :=
  (HostGlue.rhs2 (W8 m ρ c)).trans (congrArg (fun z : FVec Ideal S128x10 .f32 => truncf .bf16 z bitsLt_bf16_f32) (W8_arg6 m ρ c))

theorem entry2_bias (c : Dev nD) : Gcn.rowVec (K := 10) (HostGlue.after2 (W8 m ρ c) (Proc.devRef .tc main_v97) : FVec Ideal S1x10 .f32)
    = ((m ((c.tc : Thread nD τ).loc main_arg7)) : FVec Ideal S10 .f32) :=
  (congrArg (fun z : FVec Ideal S1x10 .f32 => Gcn.rowVec (K := 10) z)
    ((HostGlue.bias2 (W8 m ρ c)).trans (congrArg (fun z : FVec Ideal S10 .f32 => shapeCast S1x10 z shapeCasts_S10_S1x10) (W8_arg7 m ρ c)))).trans
    (Gcn.rowVec_shapeCast _ shapeCasts_S10_S1x10)

/-- The result's buffer at the last boundary: the network of the arguments as launched. -/
theorem result_eq (c : Dev nD) : W14 m ρ c (Proc.devRef .tc main_v98)
    = Cert.ReferenceIdeal.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W14_arr m ρ c 3).trans ((Region2.array_eq (V13 m ρ) c).trans ?_)
  exact (congrArg₂ (fun (a : FVec Ideal S50000x10 .f32) (b : FVec Ideal S10 .f32) => GraphConvLayers.biasLogSoftmax (M := 50000) (N := 10) a b)
    ((congrArg₂ (fun (a : FVec Ideal S50000x128 .bf16) (b : FVec Ideal S128x10 .bf16) => MatProd.matProd (M := 50000) (K := 128) (N := 10) (φ₁ := .bf16) (φ₂ := .bf16) a b)
      (entry2_lhs m ρ c) (entry2_rhs m ρ c)).trans (MatProd.matProd_truncf _ _ bitsLt_bf16_f32 bitsLt_bf16_f32))
    (entry2_bias m ρ c)).trans (by unfold Cert.ReferenceIdeal.Spec.result; rfl)

/-- The kernel program's run with its result at the network of the arguments. -/
theorem run : θ_run defs (onTc (τ := τ) (main (F := Ideal))) ⟨m, fun _ => 0, ρ⟩ (fun r => ∀ c : Dev nD,
      r.2.mem ((c.tc : Thread nD τ).loc main_v98)
        = Cert.ReferenceIdeal.Spec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunValue.run m ρ)

end Cert.KernelIdeal.KernelValue

end
-- ==== Proof.RefSide.lean ====
/-
  The reference, read as three dense maps with two graph-convolution layers between them.

  The reference's operations, one stage at a time, compose to

      log_softmax ( L (L (x · W1) b1 · W2) b2 · Wc + bc ),

  where `·` is the matrix product (a host dot_general with the plain dimension numbers), `L` one graph-convolution layer
  (the same stages in both layers, over the same edge columns), and the read-out is jax's log_softmax: the row maximum
  from minus infinity, once more the maximum with minus infinity, the shifted exponentials' sum and its logarithm. A layer
  is compared as a whole and never opened.
-/
import proofs.«167436_j15522011808341_1_alg».proof.Defs
import proofs.«167436_j15522011808341_1_alg».proof.Proof.RefRunPatched
import proofs.«167436_j15522011808341_1_alg».proof.Proof.RefReadPatched
import proofs.«167436_j15522011808341_1_alg».proof.Proof.Spec
import proofs.«167436_j15522011808341_1_alg».proof.Proof.LibJoinedPair
import proofs.«167436_j15522011808341_1_alg».proof.Proof.LibTypedTransport

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo

variable (x0 : FVec Ideal S50000x128 .f32) (x1 : IVec S2x800000 32) (x2 : FVec Ideal S128x128 .f32) (x3 : FVec Ideal S128 .f32)
  (x4 : FVec Ideal S128x128 .f32) (x5 : FVec Ideal S128 .f32) (x6 : FVec Ideal S128x10 .f32) (x7 : FVec Ideal S10 .f32)

/-- The first layer's stage is the layer of the first feature transform. -/
theorem stage_layer1 : val_main_v47 (F := Ideal) x0 x1 x2 x3 = Spec.conv x1 (val_main_v7 (F := Ideal) x0 x2) x3 := rfl

/-- The second layer's stage is the same map of the second feature transform: its stages repeat the first layer's. -/
theorem stage_layer2 :
    val_main_v88 (F := Ideal) x0 x1 x2 x3 x4 x5 = Spec.conv x1 (val_main_v48 (F := Ideal) x0 x1 x2 x3 x4) x5 := rfl

/-- The three feature transforms are matrix products. -/
theorem transform1 : val_main_v7 (F := Ideal) x0 x2 = MatProd.matProd (M := 50000) (K := 128) (N := 128) x0 x2 :=
  MatProd.dotGeneral_eq_matProd dot_S50000x128_S128x128_S50000x128_1_0_0_1_n_n rfl none .single x0 x2

theorem transform2 : val_main_v48 (F := Ideal) x0 x1 x2 x3 x4
    = MatProd.matProd (M := 50000) (K := 128) (N := 128) (φ₁ := .f32) (φ₂ := .f32) (val_main_v47 (F := Ideal) x0 x1 x2 x3) x4 :=
  MatProd.dotGeneral_eq_matProd dot_S50000x128_S128x128_S50000x128_1_0_0_1_n_n rfl none .single _ x4

theorem transform3 : val_main_v89 (F := Ideal) x0 x1 x2 x3 x4 x5 x6
    = MatProd.matProd (M := 50000) (K := 128) (N := 10) (φ₁ := .f32) (φ₂ := .f32) (val_main_v88 (F := Ideal) x0 x1 x2 x3 x4 x5) x6 :=
  MatProd.dotGeneral_eq_matProd dot_S50000x128_S128x10_S50000x10_1_0_0_1_n_n rfl none .single _ x6

/-- The read-out stages are the log-softmax of the last transform plus the bias. -/
theorem readout : val_main_v93 (F := Ideal) x0 x1 x2 x3 x4 x5 x6 x7
    = GraphConvLayers.biasLogSoftmax (M := 50000) (N := 10) (val_main_v89 (F := Ideal) x0 x1 x2 x3 x4 x5 x6) x7 :=
  GraphConvLayers.host_biasLogSoftmax (M := 50000) (N := 10) bcast_S10_S1x10_1 bcast_S1x10_S50000x10_0_1
    reducesTo_S50000x10_S50000_d1 (by decide) h_S_ bcast_S_S50000 bcast_S50000_S50000x1_0 bcast_S50000x1_S50000x10_0_1
    (val_main_v89 (F := Ideal) x0 x1 x2 x3 x4 x5 x6) x7

/-- The reference's last stage is the network of its arguments. -/
theorem last_stage : val_main_v93 (F := Ideal) x0 x1 x2 x3 x4 x5 x6 x7 = Spec.result x0 x1 x2 x3 x4 x5 x6 x7 := by
  rw [readout, transform3, stage_layer2, transform2, stage_layer1, transform1]
  rfl

/-! ## The run's fold, read

A called function names its arrays by typed references; at a literal buffer of the stated type the transport of contents
is the identity. Removing the transports first leaves the operations' own term. -/

theorem ofBuf_cst_2 (h1 h2 h3) (v : FVec Ideal S_ .f32) :
    ((TRef.of (T := ⟨S_, .f32⟩) main_cst_2 h1 h2 h3).ofBuf (Val := Elt Ideal) v : FVec Ideal S_ .f32) = v := rfl
theorem ofBuf_v13 (h1 h2 h3) (v : IVec S50000 1) :
    ((TRef.of (T := ⟨S50000, .i1⟩) main_v13 h1 h2 h3).ofBuf (Val := Elt Ideal) v : IVec S50000 1) = v := rfl
theorem ofBuf_v14 (h1 h2 h3) (v : FVec Ideal S50000 .f32) :
    ((TRef.of (T := ⟨S50000, .f32⟩) main_v14 h1 h2 h3).ofBuf (Val := Elt Ideal) v : FVec Ideal S50000 .f32) = v := rfl
theorem toBuf_v15 (h1 h2 h3) (v : FVec Ideal S50000 .f32) :
    ((TRef.of (T := ⟨S50000, .f32⟩) main_v15 h1 h2 h3).toBuf (Val := Elt Ideal) v : FVec Ideal S50000 .f32) = v := rfl
theorem ofBuf_v46 (h1 h2 h3) (v : FVec Ideal S50000x128 .f32) :
    ((TRef.of (T := ⟨S50000x128, .f32⟩) main_v46 h1 h2 h3).ofBuf (Val := Elt Ideal) v : FVec Ideal S50000x128 .f32) = v := rfl
theorem toBuf_v47 (h1 h2 h3) (v : FVec Ideal S50000x128 .f32) :
    ((TRef.of (T := ⟨S50000x128, .f32⟩) main_v47 h1 h2 h3).toBuf (Val := Elt Ideal) v : FVec Ideal S50000x128 .f32) = v := rfl
theorem ofBuf_cst_12 (h1 h2 h3) (v : FVec Ideal S_ .f32) :
    ((TRef.of (T := ⟨S_, .f32⟩) main_cst_12 h1 h2 h3).ofBuf (Val := Elt Ideal) v : FVec Ideal S_ .f32) = v := rfl
theorem ofBuf_v54 (h1 h2 h3) (v : IVec S50000 1) :
    ((TRef.of (T := ⟨S50000, .i1⟩) main_v54 h1 h2 h3).ofBuf (Val := Elt Ideal) v : IVec S50000 1) = v := rfl
theorem ofBuf_v55 (h1 h2 h3) (v : FVec Ideal S50000 .f32) :
    ((TRef.of (T := ⟨S50000, .f32⟩) main_v55 h1 h2 h3).ofBuf (Val := Elt Ideal) v : FVec Ideal S50000 .f32) = v := rfl
theorem toBuf_v56 (h1 h2 h3) (v : FVec Ideal S50000 .f32) :
    ((TRef.of (T := ⟨S50000, .f32⟩) main_v56 h1 h2 h3).toBuf (Val := Elt Ideal) v : FVec Ideal S50000 .f32) = v := rfl
theorem ofBuf_v87 (h1 h2 h3) (v : FVec Ideal S50000x128 .f32) :
    ((TRef.of (T := ⟨S50000x128, .f32⟩) main_v87 h1 h2 h3).ofBuf (Val := Elt Ideal) v : FVec Ideal S50000x128 .f32) = v := rfl
theorem toBuf_v88 (h1 h2 h3) (v : FVec Ideal S50000x128 .f32) :
    ((TRef.of (T := ⟨S50000x128, .f32⟩) main_v88 h1 h2 h3).toBuf (Val := Elt Ideal) v : FVec Ideal S50000x128 .f32) = v := rfl
theorem ofBuf_v92 (h1 h2 h3) (v : FVec Ideal S50000x10 .f32) :
    ((TRef.of (T := ⟨S50000x10, .f32⟩) main_v92 h1 h2 h3).ofBuf (Val := Elt Ideal) v : FVec Ideal S50000x10 .f32) = v := rfl
theorem toBuf_v93 (h1 h2 h3) (v : FVec Ideal S50000x10 .f32) :
    ((TRef.of (T := ⟨S50000x10, .f32⟩) main_v93 h1 h2 h3).toBuf (Val := Elt Ideal) v : FVec Ideal S50000x10 .f32) = v := rfl

variable (m : (ℓ : Loc nD τ sig) → Buf (Elt Ideal) ℓ) (ρ : Dev nD → PrngReg)

set_option maxHeartbeats 4000000 in
/-- What the operations leave in the result's buffer is their composed term of the arguments as launched. -/
theorem fold_eq (c : Dev nD) :
    after (Cert.ReferenceIdeal.ValueP.ops (F := Ideal)) (launchContents m c) (Proc.devRef .tc main_v93)
      = Cert.ReferenceIdeal.ValueP.res_main_v93 m c := by
  read_fold_casts [TRef.ofBuf_toBuf, TRef.toBuf_ofBuf, ofBuf_cst_2, ofBuf_v13, ofBuf_v14, toBuf_v15, ofBuf_v46, toBuf_v47, ofBuf_cst_12, ofBuf_v54, ofBuf_v55, toBuf_v56, ofBuf_v87, toBuf_v88, ofBuf_v92, toBuf_v93]
  unfold Cert.ReferenceIdeal.ValueP.res_main_v93
  rfl

/-- The reference's run ends with its result at the network of the arguments as launched, the arguments unchanged. -/
theorem run : θ_run defs (onTc (τ := τ) (main (F := Ideal))) ⟨m, fun _ => 0, ρ⟩ (fun r => ∀ c : Dev nD,
      r.2.mem ((c.tc : Thread nD τ).loc main_v93)
        = Spec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans ((fold_eq m c).trans ((val_main_v93_eq m c).trans (last_stage _ _ _ _ _ _ _ _))), (h c).2⟩)
    (Cert.ReferenceIdeal.ValueP.run (F := Ideal) m ρ)

end Cert.ReferenceIdeal.RefValue

end
-- ==== Proof.lean ====
/-
  The kernel against its reference: a two-layer graph convolution with a log-softmax read-out.

  Both programs compute, from the features x, the edge list e and the weights,

      log_softmax ( L (L (x · W1) b1 · W2) b2 · Wc + bc ),

  `L` one graph-convolution layer over e with its self-loops. The kernel program forms the three matrix products (the
  last with the bias and the read-out) in grid regions over blocks of 10000 rows, with operands narrowed to bf16; the
  reference forms them at once on the host. At the ideal values narrowing is the identity and a sum over k does not
  depend on how the rows are blocked, and every entry of a product or of a row-wise read-out reads one row of the
  left operand, so each region's output array is the whole-array map of its inputs. The layers between the products
  are the same host operations in both programs. No finiteness of the inputs is used.

  The three frames are the generated ones (the reference's is its run with the result dropped); the ideal pass
  rewrote nothing, so the idealization statement is trivial.
-/
import proofs.«167436_j15522011808341_1_alg».proof.Defs
import proofs.«167436_j15522011808341_1_alg».proof.Proof.Gen.Kernel
import proofs.«167436_j15522011808341_1_alg».proof.Proof.Gen.Kernel.Frame
import proofs.«167436_j15522011808341_1_alg».proof.Proof.Gen.KernelIdeal
import proofs.«167436_j15522011808341_1_alg».proof.Proof.Gen.KernelIdeal.Frame
import proofs.«167436_j15522011808341_1_alg».proof.Proof.Gen.ReferenceIdeal
import proofs.«167436_j15522011808341_1_alg».proof.Proof.Gen.Pre_finite_inputs
import proofs.«167436_j15522011808341_1_alg».proof.Proof.KernelValue
import proofs.«167436_j15522011808341_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- Both runs end with the result at the same function of arguments that agree. -/
theorem algebraic : Cert.algebraic_KernelIdeal_ReferenceIdeal := by
  intro m ρ m' ρ' _ hagree
  refine ⟨fun c => Cert.ReferenceIdeal.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
